-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S32000x4096 : S_.BroadcastsInDim S32000x4096 (![] : Fin 0 → Fin S32000x4096.rank)
  reducesTo_S32000x4096_S_d0_1 : S32000x4096.ReducesTo [0, 1] S_

variable [Facts]

def fn_part1 {F : FTy → Type} [FloatOps F] (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  main_v18

def fn {F : FTy → Type} [FloatOps F] (main_arg0 : FVec F S2048x2048 .f32) (main_arg1 : FVec F S32000x2048 .f32) (main_arg2 : FVec F S2048x4096 .f32) (main_arg3 : FVec F S32000x4096 .f32) (main_arg4 : IVec S2048 32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_v13 main_v16
-- ==== Kernel.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x1 : Shape := ⟨2, ![2048, 1]⟩
abbrev S512x2048 : Shape := ⟨2, ![512, 2048]⟩
abbrev S512x4096 : Shape := ⟨2, ![512, 4096]⟩
abbrev S256x2048 : Shape := ⟨2, ![256, 2048]⟩
abbrev S256x4096 : Shape := ⟨2, ![256, 4096]⟩
abbrev S512x1 : Shape := ⟨2, ![512, 1]⟩
abbrev S512x256 : Shape := ⟨2, ![512, 256]⟩
abbrev S512 : Shape := ⟨1, ![512]⟩
abbrev S_ : Shape := ⟨0, ![]⟩

abbrev nBuf : Space → Nat
  | .hbm => 31
  | .vmem => 34
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x2048, .bf16⟩
  | .hbm, ⟨6, _⟩ => ⟨S32000x2048, .bf16⟩
  | .hbm, ⟨7, _⟩ => ⟨S2048x4096, .bf16⟩
  | .hbm, ⟨8, _⟩ => ⟨S32000x4096, .bf16⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x2048, .bf16⟩
  | .local _ .vmem, ⟨1, _⟩ => ⟨S512x2048, .bf16⟩
  | .local _ .vmem, ⟨2, _⟩ => ⟨S512x4096, .bf16⟩
  | .local _ .vmem, ⟨3, _⟩ => ⟨S512x4096, .bf16⟩
  | .local _ .vmem, ⟨4, _⟩ => ⟨S256x2048, .bf16⟩
  | .local _ .vmem, ⟨5, _⟩ => ⟨S256x2048, .bf16⟩
  | .local _ .vmem, ⟨6, _⟩ => ⟨S256x4096, .bf16⟩
  | .local _ .vmem, ⟨7, _⟩ => ⟨S256x4096, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x2048, .bf16⟩
  | .local _ .vmem, ⟨17, _⟩ => ⟨S512x2048, .bf16⟩
  | .local _ .vmem, ⟨18, _⟩ => ⟨S512x4096, .bf16⟩
  | .local _ .vmem, ⟨19, _⟩ => ⟨S512x4096, .bf16⟩
  | .local _ .vmem, ⟨20, _⟩ => ⟨S256x2048, .bf16⟩
  | .local _ .vmem, ⟨21, _⟩ => ⟨S256x2048, .bf16⟩
  | .local _ .vmem, ⟨22, _⟩ => ⟨S256x4096, .bf16⟩
  | .local _ .vmem, ⟨23, _⟩ => ⟨S256x4096, .bf16⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨2, ![4, 125], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 125], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S512x256_S512 : S512x256.Reduces [1] S512
  shapeCasts_S512_S512x1 : S512.ShapeCasts S512x1
  shapeCasts_S512x1_S512x1 : S512x1.ShapeCasts S512x1
  broadcasts_S512x1_S512x256 : S512x1.Broadcasts S512x256
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S2048x1_S2048 : S2048x1.ShapeCasts S2048
  bcast_S_S2048 : S_.BroadcastsInDim S2048 (![] : Fin 0 → Fin S2048.rank)
  natLt_1_32 : 1 < 32
  reducesTo_S2048_S_d0 : S2048.ReducesTo [0] S_
  h_S_ : 0 < S_.numel
  dot_S512x2048_S256x2048_S512x256_1_1_0_0_n_n_wf : DotDims.WF S512x2048 S256x2048 S512x256 [1] [1] [0] [0] [] []
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .bf16 = 32 ∨ (Rect.block (s := S2048x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S32000x2048.size a
  hwx0_2 : ∀ i : grid0.Coords, EltTy.bits .bf16 = 32 ∨ (Rect.block (s := S32000x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .bf16 = 32 ∨ (Rect.block (s := S32000x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S2048x1.size a
  hwx0_5 : ∀ i : grid0.Coords, EltTy.bits .f32 = 32 ∨ (Rect.block (s := S2048x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S2048x1.size a
  hwx0_6 : ∀ i : grid0.Coords, EltTy.bits .f32 = 32 ∨ (Rect.block (s := S2048x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S2048x1.size a
  hwx0_7 : ∀ i : grid0.Coords, EltTy.bits .f32 = 32 ∨ (Rect.block (s := S2048x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .bf16 = 32 ∨ (Rect.block (s := S2048x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .bf16 = 32 ∨ (Rect.block (s := S2048x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S32000x2048.size a
  hwx1_2 : ∀ i : grid1.Coords, EltTy.bits .bf16 = 32 ∨ (Rect.block (s := S32000x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S32000x4096.size a
  hwx1_3 : ∀ i : grid1.Coords, EltTy.bits .bf16 = 32 ∨ (Rect.block (s := S32000x4096) S256x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S2048x1.size a
  hwx1_4 : ∀ i : grid1.Coords, EltTy.bits .f32 = 32 ∨ (Rect.block (s := S2048x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S2048x1.size a
  hwx1_5 : ∀ i : grid1.Coords, EltTy.bits .f32 = 32 ∨ (Rect.block (s := S2048x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S2048x1.size a
  hwx1_6 : ∀ i : grid1.Coords, EltTy.bits .f32 = 32 ∨ (Rect.block (s := S2048x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S2048x1.size a
  hwx1_7 : ∀ i : grid1.Coords, EltTy.bits .f32 = 32 ∨ (Rect.block (s := S2048x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S2048x1.size a
  hwx1_8 : ∀ i : grid1.Coords, EltTy.bits .f32 = 32 ∨ (Rect.block (s := S2048x1) S512x1.size (cc1_transform_8 i) (hinb1_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_2) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_3) S512x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5) S512x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S32000x2048 : Shape := ⟨2, ![32000, 2048]⟩
abbrev S2048x4096 : Shape := ⟨2, ![2048, 4096]⟩
abbrev S32000x4096 : Shape := ⟨2, ![32000, 4096]⟩
abbrev S2048 : Shape := ⟨1, ![2048]⟩
abbrev S2048x32000 : Shape := ⟨2, ![2048, 32000]⟩
abbrev S_ : Shape := ⟨0, ![]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S32000x2048, .f32⟩
  | .hbm, ⟨2, _⟩ => ⟨S2048x4096, .f32⟩
  | .hbm, ⟨3, _⟩ => ⟨S32000x4096, .f32⟩
  | .hbm, ⟨4, _⟩ => ⟨S2048, .i32⟩
  | .hbm, ⟨5, _⟩ => ⟨S2048x32000, .f32⟩
  | .hbm, ⟨6, _⟩ => ⟨S_, .f32⟩
  | .hbm, ⟨7, _⟩ => ⟨S2048x32000, .f32⟩
  | .hbm, ⟨8, _⟩ => ⟨S2048x32000, .f32⟩
  | .hbm, ⟨9, _⟩ => ⟨S2048x32000, .f32⟩
  | .hbm, ⟨10, _⟩ => ⟨S_, .f32⟩
  | .hbm, ⟨11, _⟩ => ⟨S2048x32000, .f32⟩
  | .hbm, ⟨12, _⟩ => ⟨S2048x32000, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048x1, .f32⟩
  | .hbm, ⟨19, _⟩ => ⟨S2048x32000, .f32⟩
  | .hbm, ⟨20, _⟩ => ⟨S2048x32000, .f32⟩
  | .hbm, ⟨21, _⟩ => ⟨S2048x32000, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x32000, .f32⟩
  | .hbm, ⟨27, _⟩ => ⟨S2048x32000, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x32000, .f32⟩
  | .hbm, ⟨35, _⟩ => ⟨S2048x32000, .f32⟩
  | .hbm, ⟨36, _⟩ => ⟨S2048x32000, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S2048x32000, .f32⟩
  | .hbm, ⟨45, _⟩ => ⟨S_, .f32⟩
  | .hbm, ⟨46, _⟩ => ⟨S2048x32000, .f32⟩
  | .hbm, ⟨47, _⟩ => ⟨S2048x32000, .f32⟩
  | .hbm, ⟨48, _⟩ => ⟨S_, .f32⟩
  | .hbm, ⟨49, _⟩ => ⟨S2048x32000, .f32⟩
  | .hbm, ⟨50, _⟩ => ⟨S2048x32000, .f32⟩
  | .hbm, ⟨51, _⟩ => ⟨S2048x32000, .f32⟩
  | .hbm, ⟨52, _⟩ => ⟨S2048x32000, .f32⟩
  | .hbm, ⟨53, _⟩ => ⟨S_, .f32⟩
  | .hbm, ⟨54, _⟩ => ⟨S2048x32000, .f32⟩
  | .hbm, ⟨55, _⟩ => ⟨S2048x32000, .f32⟩
  | .hbm, ⟨56, _⟩ => ⟨S2048x32000, .f32⟩
  | .hbm, ⟨57, _⟩ => ⟨S2048x32000, .f32⟩
  | .hbm, ⟨58, _⟩ => ⟨S_, .f32⟩
  | .hbm, ⟨59, _⟩ => ⟨S2048x32000, .f32⟩
  | .hbm, ⟨60, _⟩ => ⟨S2048x32000, .f32⟩
  | .hbm, ⟨61, _⟩ => ⟨S2048x32000, .f32⟩
  | .hbm, ⟨62, _⟩ => ⟨S2048x32000, .f32⟩
  | .hbm, ⟨63, _⟩ => ⟨S2048x32000, .f32⟩
  | .hbm, ⟨64, _⟩ => ⟨S_, .f32⟩
  | .hbm, ⟨65, _⟩ => ⟨S2048, .f32⟩
  | .hbm, ⟨66, _⟩ => ⟨S_, .i32⟩
  | .hbm, ⟨67, _⟩ => ⟨S2048, .i32⟩
  | .hbm, ⟨68, _⟩ => ⟨S2048, .i1⟩
  | .hbm, ⟨69, _⟩ => ⟨S2048, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v6 : Ref sig .tc := ⟨.hbm, 27, rfl⟩
abbrev main_call1_cst : Ref sig .tc := ⟨.hbm, 28, rfl⟩
abbrev main_call1_v0 : Ref sig .tc := ⟨.hbm, 29, rfl⟩
abbrev main_call1_cst_0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_cst_1 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst_1 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_4 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_c : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_6 : Ref sig .tc := ⟨.hbm, 70, rfl⟩
abbrev main_v29 : Ref sig .tc := ⟨.hbm, 71, rfl⟩
abbrev main_c_7 : Ref sig .tc := ⟨.hbm, 72, rfl⟩
abbrev main_v30 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_v31 : Ref sig .tc := ⟨.hbm, 77, rfl⟩
abbrev main_cst_9 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩

abbrev nD : Nat := 1
abbrev τ : Topo := Topo.v7x

variable {F : FTy → Type} [FloatOps F]

class Facts₀ : Prop where
  bcast_S_S2048x32000 : S_.BroadcastsInDim S2048x32000 (![] : Fin 0 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  natLt_1_32 : 1 < 32
  reducesTo_S2048_S_d0 : S2048.ReducesTo [0] S_
  dot_S2048x2048_S32000x2048_S2048x32000_1_1_0_0_n_n_wf : DotDims.WF S2048x2048 S32000x2048 S2048x32000 [1] [1] [0] [0] [] []
  dot_S2048x4096_S32000x4096_S2048x32000_1_1_0_0_n_n_wf : DotDims.WF S2048x4096 S32000x4096 S2048x32000 [1] [1] [0] [0] [] []

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf
def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf

class Facts : Prop extends Facts₀ where

variable [Facts]
-- ==== Proof.JsdTail.lean ====
/-
  The last stretch of both programs: the mean of the per-token losses over the tokens whose target is not the ignore
  index −100. From the targets tgt : i32[2048] and the per-token losses tokv : f32[2048],
      mask = (tgt ≠ −100),   n = max (Σ mask, 1),   result = (Σ over tokens of (mask ? tokv : 0)) / n.
  One function of (tgt, tokv), stated once so that neither program's copy is ever opened.
-/
import Idealize.ShloMosaic.PureOps
import Idealize.ShloMosaic.PureOps.Ideal

noncomputable section

namespace Cert.Jsd

open Idealize.ShloMosaic

abbrev T2048 : Shape := ⟨1, ![2048]⟩
abbrev T0 : Shape := ⟨0, ![]⟩

/-- The masked mean over tokens, as the host operations compute it. -/
def maskedMean (hb : T0.BroadcastsInDim T2048 (![] : Fin 0 → Fin T2048.rank)) (hlt : 1 < 32) (hr : T2048.ReducesTo [0] T0) (hn : 0 < T0.numel)
    (tgt : IVec T2048 32) (tokv : FVec Ideal T2048 .f32) : FVec Ideal T0 .f32 :=
  Host.divf (F := Ideal)
    (Host.reduceAdd (F := Ideal)
      (select (cmpi .ne tgt (broadcastInDim T2048 ![] hb (constantI T0 32 4294967196#32))) tokv
        (broadcastInDim T2048 ![] hb (id (constant (F := Ideal) T0 .f32 0x00000000#32))))
      (constant (F := Ideal) T0 .f32 0x00000000#32) hr hn)
    (sitofp (F := Ideal) .f32
      (maxsi (Host.reduce IntOp.addi (extui 32 (cmpi .ne tgt (broadcastInDim T2048 ![] hb (constantI T0 32 4294967196#32))) hlt)
        (constantI T0 32 0#32) hr hn) (constantI T0 32 1#32)))

end Cert.Jsd

end
-- ==== Proof.KernelRun.lean ====
/-
  The kernel program's run with its result in the post, and what that result is.

  The run: every weakly fair execution of @main terminates with the result buffer at the last boundary's contents
  (the fold of the host stretches and the two regions from the launch memory) and the arguments as launched.
  The tail: the last three host stretches compute, from the targets and the per-token losses the second region
  leaves, the masked mean over the tokens whose target is not the ignore index.
  The head: the first stretch converts the four float arguments to the narrower float type, which on extended reals
  is the identity, and the first region leaves its four statistics arrays at what its write-backs fold to.
-/
import proofs.«159389_j37958920962547_1_alg».proof.Proof.Gen.KernelIdeal.Launch
import proofs.«159389_j37958920962547_1_alg».proof.Proof.Gen.KernelIdeal.Skeleton
import proofs.«159389_j37958920962547_1_alg».proof.Proof.Gen.KernelIdeal.Points
import proofs.«159389_j37958920962547_1_alg».proof.Proof.Gen.KernelIdeal.Frame
import proofs.«159389_j37958920962547_1_alg».proof.Proof.JsdTail
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with its result: at the compiled mesh, from any memory with zero counters, every weakly fair execution of
    @main on the TensorCores terminates, nothing faulting, and every final state has the result buffer at the last
    boundary's contents `W6` and the argument arrays as launched. The last thread state holds every unscoped buffer
    at `W6`; the result buffer is one of them. -/
theorem run_value : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Run

section Fold

variable {F : FTy → Type} [FloatOps F]
variable (m : (ℓ : Loc nD τ sig) → Buf (Elt F) ℓ) (ρ : Dev nD → PrngReg)

/-- The targets reach the last stretches as launched: neither region and no earlier host operation writes them. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg4) := rfl

/-- The second region leaves the per-token losses at what its write-backs fold to. -/
theorem W3_main_v5 (c : Dev nD) : W3 m ρ c (Proc.devRef .tc main_v5) = (dat1 (V2 m ρ) c).arrAt 8 cfg1.N := W3_arr m ρ c 8

/-- Before the first region, the converted copy of argument 0 is the argument narrowed to the shorter float type. -/
theorem W1_main_v0 (c : Dev nD) :
    W1 m ρ c (Proc.devRef .tc main_v0) = truncf .bf16 (m ((c : Thread nD τ).loc main_arg0)) bitsLt_bf16_f32 := by
  show StableHlo.after hostOps0 (W0 m ρ c) (Proc.devRef .tc main_v0) = _
  after_results_simp

/-- Before the first region, the converted copy of argument 1 is the argument narrowed to the shorter float type. -/
theorem W1_main_v1 (c : Dev nD) :
    W1 m ρ c (Proc.devRef .tc main_v1) = truncf .bf16 (m ((c : Thread nD τ).loc main_arg1)) bitsLt_bf16_f32 := by
  show StableHlo.after hostOps0 (W0 m ρ c) (Proc.devRef .tc main_v1) = _
  after_results_simp

/-- Before the first region, the converted copy of argument 2 is the argument narrowed to the shorter float type. -/
theorem W1_main_v2 (c : Dev nD) :
    W1 m ρ c (Proc.devRef .tc main_v2) = truncf .bf16 (m ((c : Thread nD τ).loc main_arg2)) bitsLt_bf16_f32 := by
  show StableHlo.after hostOps0 (W0 m ρ c) (Proc.devRef .tc main_v2) = _
  after_results_simp

/-- Before the first region, the converted copy of argument 3 is the argument narrowed to the shorter float type. -/
theorem W1_main_v3 (c : Dev nD) :
    W1 m ρ c (Proc.devRef .tc main_v3) = truncf .bf16 (m ((c : Thread nD τ).loc main_arg3)) bitsLt_bf16_f32 := by
  show StableHlo.after hostOps0 (W0 m ρ c) (Proc.devRef .tc main_v3) = _
  after_results_simp

end Fold

section AtIdeal

variable (m : (ℓ : Loc nD τ sig) → Buf (Elt Ideal) ℓ) (ρ : Dev nD → PrngReg)

/-- The result is the masked mean of the per-token losses the second region leaves, over the launched targets:
    the three last stretches read through, from contents that are arbitrary but for the two buffers they read. -/
theorem tail_value (c : Dev nD) :
    W6 (F := Ideal) m ρ c (Proc.devRef .tc main_v15)
      = Cert.Jsd.maskedMean bcast_S_S2048 natLt_1_32 reducesTo_S2048_S_d0 h_S_ (m ((c.tc : Thread nD τ).loc main_arg4))
          (shapeCast S2048 ((dat1 (F := Ideal) (V2 m ρ) c).arrAt 8 cfg1.N) shapeCasts_S2048x1_S2048) := by
  have h5 := W3_main_v5 m ρ c
  have h4 := W3_main_arg4 m ρ c
  show StableHlo.after hostOps2_2 (StableHlo.after hostOps2_1 (StableHlo.after hostOps2 (W3 m ρ c))) (Proc.devRef .tc main_v15) = _
  generalize (dat1 (F := Ideal) (V2 m ρ) c).arrAt 8 cfg1.N = A at h5 ⊢
  generalize m ((c.tc : Thread nD τ).loc main_arg4) = T at h4 ⊢
  generalize W3 m ρ c = w3 at h5 h4 ⊢
  simp (disch := decide) only [StableHlo.after_cons, StableHlo.after_nil, StableHlo.nullary_result', StableHlo.unary_result', StableHlo.binary_result', StableHlo.ternary_result', StableHlo.reshape_result', StableHlo.nullary_result_ne', StableHlo.unary_result_ne', StableHlo.binary_result_ne', StableHlo.ternary_result_ne', StableHlo.reshape_result_ne', cast_eq, h5, h4]
  rfl

/-- At the first region's entry the converted copy of argument 0 is, on extended reals, the argument itself:
    narrowing to the shorter float type is the identity there. -/
theorem head1_v0 (c : Dev nD) :
    (V1 (F := Ideal) m ρ c main_v0 : (⟨2, ![2048, 2048]⟩ : Shape).Idx → EReal) = m ((c.tc : Thread nD τ).loc main_arg0) := by
  show W1 m ρ c (Proc.devRef .tc main_v0) = _
  rw [W1_main_v0]
  rfl

/-- At the second region's entry likewise: the first region reads that copy through its input window 0 and never
    writes it. -/
theorem head2_v0 (c : Dev nD) :
    (V2 (F := Ideal) m ρ c main_v0 : (⟨2, ![2048, 2048]⟩ : Shape).Idx → EReal) = m ((c.tc : Thread nD τ).loc main_arg0) := by
  have e1 : V2 (F := Ideal) m ρ c main_v0 = (dat0 (F := Ideal) (V1 m ρ) c).arrAt 0 cfg0.N := W2_arr m ρ c 0
  have e2 : (dat0 (F := Ideal) (V1 m ρ) c).arrAt 0 cfg0.N = W1 m ρ c (Proc.devRef .tc main_v0) :=
    (dat0 (F := Ideal) (V1 m ρ) c).arrAt_in 0 rfl _
  show V2 (F := Ideal) m ρ c main_v0 = _
  rw [e1, e2, W1_main_v0]
  rfl

/-- At the first region's entry the converted copy of argument 1 is, on extended reals, the argument itself:
    narrowing to the shorter float type is the identity there. -/
theorem head1_v1 (c : Dev nD) :
    (V1 (F := Ideal) m ρ c main_v1 : (⟨2, ![32000, 2048]⟩ : Shape).Idx → EReal) = m ((c.tc : Thread nD τ).loc main_arg1) := by
  show W1 m ρ c (Proc.devRef .tc main_v1) = _
  rw [W1_main_v1]
  rfl

/-- At the second region's entry likewise: the first region reads that copy through its input window 2 and never
    writes it. -/
theorem head2_v1 (c : Dev nD) :
    (V2 (F := Ideal) m ρ c main_v1 : (⟨2, ![32000, 2048]⟩ : Shape).Idx → EReal) = m ((c.tc : Thread nD τ).loc main_arg1) := by
  have e1 : V2 (F := Ideal) m ρ c main_v1 = (dat0 (F := Ideal) (V1 m ρ) c).arrAt 2 cfg0.N := W2_arr m ρ c 2
  have e2 : (dat0 (F := Ideal) (V1 m ρ) c).arrAt 2 cfg0.N = W1 m ρ c (Proc.devRef .tc main_v1) :=
    (dat0 (F := Ideal) (V1 m ρ) c).arrAt_in 2 rfl _
  show V2 (F := Ideal) m ρ c main_v1 = _
  rw [e1, e2, W1_main_v1]
  rfl

/-- At the first region's entry the converted copy of argument 2 is, on extended reals, the argument itself:
    narrowing to the shorter float type is the identity there. -/
theorem head1_v2 (c : Dev nD) :
    (V1 (F := Ideal) m ρ c main_v2 : (⟨2, ![2048, 4096]⟩ : Shape).Idx → EReal) = m ((c.tc : Thread nD τ).loc main_arg2) := by
  show W1 m ρ c (Proc.devRef .tc main_v2) = _
  rw [W1_main_v2]
  rfl

/-- At the second region's entry likewise: the first region reads that copy through its input window 1 and never
    writes it. -/
theorem head2_v2 (c : Dev nD) :
    (V2 (F := Ideal) m ρ c main_v2 : (⟨2, ![2048, 4096]⟩ : Shape).Idx → EReal) = m ((c.tc : Thread nD τ).loc main_arg2) := by
  have e1 : V2 (F := Ideal) m ρ c main_v2 = (dat0 (F := Ideal) (V1 m ρ) c).arrAt 1 cfg0.N := W2_arr m ρ c 1
  have e2 : (dat0 (F := Ideal) (V1 m ρ) c).arrAt 1 cfg0.N = W1 m ρ c (Proc.devRef .tc main_v2) :=
    (dat0 (F := Ideal) (V1 m ρ) c).arrAt_in 1 rfl _
  show V2 (F := Ideal) m ρ c main_v2 = _
  rw [e1, e2, W1_main_v2]
  rfl

/-- At the first region's entry the converted copy of argument 3 is, on extended reals, the argument itself:
    narrowing to the shorter float type is the identity there. -/
theorem head1_v3 (c : Dev nD) :
    (V1 (F := Ideal) m ρ c main_v3 : (⟨2, ![32000, 4096]⟩ : Shape).Idx → EReal) = m ((c.tc : Thread nD τ).loc main_arg3) := by
  show W1 m ρ c (Proc.devRef .tc main_v3) = _
  rw [W1_main_v3]
  rfl

/-- At the second region's entry likewise: the first region reads that copy through its input window 3 and never
    writes it. -/
theorem head2_v3 (c : Dev nD) :
    (V2 (F := Ideal) m ρ c main_v3 : (⟨2, ![32000, 4096]⟩ : Shape).Idx → EReal) = m ((c.tc : Thread nD τ).loc main_arg3) := by
  have e1 : V2 (F := Ideal) m ρ c main_v3 = (dat0 (F := Ideal) (V1 m ρ) c).arrAt 3 cfg0.N := W2_arr m ρ c 3
  have e2 : (dat0 (F := Ideal) (V1 m ρ) c).arrAt 3 cfg0.N = W1 m ρ c (Proc.devRef .tc main_v3) :=
    (dat0 (F := Ideal) (V1 m ρ) c).arrAt_in 3 rfl _
  show V2 (F := Ideal) m ρ c main_v3 = _
  rw [e1, e2, W1_main_v3]
  rfl

/-- At the second region's entry the first region's statistics array 0 holds what its write-backs fold to. -/
theorem stats_arr_0 (c : Dev nD) :
    (V2 (F := Ideal) m ρ c main_v4_0 : (⟨2, ![2048, 1]⟩ : Shape).Idx → EReal) = (dat0 (F := Ideal) (V1 m ρ) c).arrAt 4 cfg0.N :=
  W2_arr m ρ c 4

/-- At the second region's entry the first region's statistics array 1 holds what its write-backs fold to. -/
theorem stats_arr_1 (c : Dev nD) :
    (V2 (F := Ideal) m ρ c main_v4_1 : (⟨2, ![2048, 1]⟩ : Shape).Idx → EReal) = (dat0 (F := Ideal) (V1 m ρ) c).arrAt 5 cfg0.N :=
  W2_arr m ρ c 5

/-- At the second region's entry the first region's statistics array 2 holds what its write-backs fold to. -/
theorem stats_arr_2 (c : Dev nD) :
    (V2 (F := Ideal) m ρ c main_v4_2 : (⟨2, ![2048, 1]⟩ : Shape).Idx → EReal) = (dat0 (F := Ideal) (V1 m ρ) c).arrAt 6 cfg0.N :=
  W2_arr m ρ c 6

/-- At the second region's entry the first region's statistics array 3 holds what its write-backs fold to. -/
theorem stats_arr_3 (c : Dev nD) :
    (V2 (F := Ideal) m ρ c main_v4_3 : (⟨2, ![2048, 1]⟩ : Shape).Idx → EReal) = (dat0 (F := Ideal) (V1 m ρ) c).arrAt 7 cfg0.N :=
  W2_arr m ρ c 7

end AtIdeal

end Cert.KernelIdeal.RunValue

end
-- ==== Proof.LibBlockSum.lean ====
/-
  A sum over a flat axis of  n · m  entries is the double sum over its n blocks of m: entry  m · t + i  is entry i of
  block t.  (What turns a contraction over 1152 = 9 · 128 stacked rows into a sum over nine taps of a sum over 128
  channels, and one over 384 = 3 · 128 into three.)
-/
import Mathlib.Data.EReal.Inv
import Mathlib.Algebra.BigOperators.Fin
import Mathlib.Logic.Equiv.Fin.Basic

open scoped BigOperators

namespace Cert.LibBlockSum

/-- Entry `m · t + i` of a flat axis of `n · m` entries. -/
def flat {n m : Nat} (t : Fin n) (i : Fin m) : Fin (n * m) :=
  ⟨m * t.val + i.val, by
    have ht := t.isLt; have hi := i.isLt
    calc m * t.val + i.val < m * t.val + m := by omega
      _ = m * (t.val + 1) := by ring
      _ ≤ m * n := Nat.mul_le_mul_left m ht
      _ = n * m := Nat.mul_comm m n⟩

theorem flat_eq_finProdFinEquiv {n m : Nat} (t : Fin n) (i : Fin m) : flat t i = finProdFinEquiv (t, i) := by
  apply Fin.ext
  show m * t.val + i.val = i.val + m * t.val
  omega

/-- The flat sum is the sum over blocks of the sums within blocks. -/
theorem sum_blocks {M : Type} [AddCommMonoid M] {n m : Nat} (F : Fin (n * m) → M) :
    ∑ k, F k = ∑ t : Fin n, ∑ i : Fin m, F (flat t i) := by
  rw [← Equiv.sum_comp finProdFinEquiv F, Fintype.sum_prod_type]
  exact Finset.sum_congr rfl fun t _ => Finset.sum_congr rfl fun i _ => by rw [flat_eq_finProdFinEquiv]

end Cert.LibBlockSum
-- ==== Proof.JsdLaw.lean ====
/-
  The mathematics of the Jensen–Shannon loss of two soft-max rows, away from any program.

  A row of logits  s : Fin n → ℝ  has the log-normaliser  lse s = log ∑ᵤ exp (s u),  and for every real shift μ
      μ + log ∑ᵤ exp (s u − μ) = lse s ,
  so a log-probability  s v − lse s  may be computed as  (s v − μ) − log ∑ᵤ exp (s u − μ)  (shift first, the two-pass
  form) or as  s v − (μ + log ∑ᵤ exp (s u − μ))  (normaliser first) with ANY real μ: the value of the shift never
  matters, only that it is a real number.  The running pair (shift, shifted sum) over the first blocks of the row is
  carried from block to block by  exp (μ − μ') · ∑ exp (s u − μ) = ∑ exp (s u − μ').
-/
import Idealize.ShloMosaic.PureOps.Ideal
import Idealize.ShloMosaic.PureOps.Ideal.Laws
import Idealize.ShloMosaic.Lib.ValueIdx
import proofs.«159389_j37958920962547_1_alg».proof.Proof.LibBlockSum

noncomputable section

open scoped BigOperators

namespace Cert.Jsd

open Idealize.ShloMosaic Idealize.ShloMosaic.ValueIdx Cert.LibBlockSum

/-- The weight one half of the two distributions, as the programs spell it. -/
abbrev half : EReal := Ideal.ofBits .f32 0x3F000000#32

/-- Entry (R, v) of  x · wᵀ : the logit of row R for vocabulary entry v. -/
def logitAt {B H Vn : ℕ} (x : (⟨2, ![B, H]⟩ : Shape).Idx → EReal) (w : (⟨2, ![Vn, H]⟩ : Shape).Idx → EReal)
    (R : Fin B) (v : Fin Vn) : EReal :=
  ∑ k : Fin H, x (ix2 R k) * w (ix2 v k)

/-- The log-normaliser of a row of logits. -/
def lse {n : ℕ} (s : Fin n → EReal) : EReal := Ideal.log (∑ v, Ideal.exp (s v))

/-- One vocabulary entry's share of the divergence, from the student's and the teacher's log-probabilities x and y:
    with Q = eˣ, P = eʸ and the mixture M = P/2 + Q/2 it is  (P/2)(y − log M) + (Q/2)(x − log M). -/
def contrib (x y : EReal) : EReal :=
  (half * Ideal.exp y) * (y - Ideal.log (half * Ideal.exp y + half * Ideal.exp x))
    + (half * Ideal.exp x) * (x - Ideal.log (half * Ideal.exp y + half * Ideal.exp x))

/-- A token's loss from its two rows of logits. -/
def tok {n : ℕ} (s t : Fin n → EReal) : EReal := ∑ v, contrib (s v - lse s) (t v - lse t)

/-- A finite sum of reals, as an extended real, is the sum of the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of finitely many (at least one) real numbers, folded from −∞, is a real number. -/
theorem fold_max_real {n : ℕ} (hn : 0 < n) (g : Fin n → EReal) (σ : Fin n → ℝ) (hg : ∀ k, g k = σ k) :
    ∃ M : ℝ, (Finset.univ : Finset (Fin n)).fold max (⊥ : EReal) g = M := by
  have hne : (Finset.univ : Finset (Fin n)).Nonempty := ⟨⟨0, hn⟩, Finset.mem_univ _⟩
  have hfold : (Finset.univ : Finset (Fin n)).fold max (⊥ : EReal) g = Finset.univ.sup g := rfl
  obtain ⟨k, _, hk⟩ := Finset.exists_mem_eq_sup Finset.univ hne g
  exact ⟨σ k, by rw [hfold, hk, hg]⟩

/-- Shifting every exponent by M takes M off the logarithm of the sum:  log ∑ exp (σ − M) = log ∑ exp σ − M. -/
theorem log_sum_exp_sub {n : ℕ} (hn : 0 < n) (σ : Fin n → ℝ) (M : ℝ) :
    Real.log (∑ u, Real.exp (σ u - M)) = Real.log (∑ u, Real.exp (σ u)) - M := by
  have hne : (Finset.univ : Finset (Fin n)).Nonempty := ⟨⟨0, hn⟩, Finset.mem_univ _⟩
  have hpos : 0 < ∑ u, Real.exp (σ u - M) := Finset.sum_pos (fun u _ => Real.exp_pos _) hne
  have h : ∑ u, Real.exp (σ u) = Real.exp M * ∑ u, Real.exp (σ u - M) := by
    rw [Finset.mul_sum]; refine Finset.sum_congr rfl fun u _ => ?_
    rw [← Real.exp_add]; congr 1; ring
  rw [h, Real.log_mul (Real.exp_pos M).ne' hpos.ne', Real.log_exp]; ring

/-- The log-normaliser of a row of real logits is the real number  log ∑ exp σ. -/
theorem lse_coe {n : ℕ} (hn : 0 < n) (s : Fin n → EReal) (σ : Fin n → ℝ) (hs : ∀ v, s v = σ v) :
    lse s = ((Real.log (∑ u, Real.exp (σ u)) : ℝ) : EReal) := by
  have hne : (Finset.univ : Finset (Fin n)).Nonempty := ⟨⟨0, hn⟩, Finset.mem_univ _⟩
  have hpos : 0 < ∑ u, Real.exp (σ u) := Finset.sum_pos (fun u _ => Real.exp_pos _) hne
  have h : (∑ v, Ideal.exp (s v)) = ((∑ u, Real.exp (σ u) : ℝ) : EReal) := by
    rw [coe_sum]; exact Finset.sum_congr rfl fun u _ => by rw [hs, Ideal.exp_coe]
  rw [lse, h, Ideal.log_coe, if_neg (not_le.mpr hpos)]

/-- Normaliser first: with any real shift M and L = ∑ exp (s − M), the entry  s v − (M + log L)  is  s v − lse s. -/
theorem sub_shift_add_log {n : ℕ} (hn : 0 < n) (s : Fin n → EReal) (σ : Fin n → ℝ) (hs : ∀ v, s v = σ v) (M : ℝ) (v : Fin n) :
    s v - ((M : EReal) + Ideal.log ((∑ u, Real.exp (σ u - M) : ℝ) : EReal)) = s v - lse s := by
  have hne : (Finset.univ : Finset (Fin n)).Nonempty := ⟨⟨0, hn⟩, Finset.mem_univ _⟩
  have hpos : 0 < ∑ u, Real.exp (σ u - M) := Finset.sum_pos (fun u _ => Real.exp_pos _) hne
  have hr : M + (Real.log (∑ u, Real.exp (σ u)) - M) = Real.log (∑ u, Real.exp (σ u)) := by ring
  rw [lse_coe hn s σ hs, Ideal.log_coe, if_neg (not_le.mpr hpos), log_sum_exp_sub hn σ M, ← EReal.coe_add, hr]

/-- Shift first: with any real shift m, the entry  (s v − m) − log ∑ exp (s − m)  is  s v − lse s. -/
theorem sub_shift_sub_log {n : ℕ} (hn : 0 < n) (s : Fin n → EReal) (σ : Fin n → ℝ) (hs : ∀ v, s v = σ v) (m : ℝ) (v : Fin n) :
    (s v - (m : EReal)) - Ideal.log (∑ u, Ideal.exp (s u - (m : EReal))) = s v - lse s := by
  have hne : (Finset.univ : Finset (Fin n)).Nonempty := ⟨⟨0, hn⟩, Finset.mem_univ _⟩
  have hpos : 0 < ∑ u, Real.exp (σ u - m) := Finset.sum_pos (fun u _ => Real.exp_pos _) hne
  have h : (∑ u, Ideal.exp (s u - (m : EReal))) = ((∑ u, Real.exp (σ u - m) : ℝ) : EReal) := by
    rw [coe_sum]; exact Finset.sum_congr rfl fun u _ => by rw [hs, ← EReal.coe_sub, Ideal.exp_coe]
  have hr : σ v - m - (Real.log (∑ u, Real.exp (σ u)) - m) = σ v - Real.log (∑ u, Real.exp (σ u)) := by ring
  rw [h, lse_coe hn s σ hs, Ideal.log_coe, if_neg (not_le.mpr hpos), log_sum_exp_sub hn σ m, hs v,
    ← EReal.coe_sub, ← EReal.coe_sub, ← EReal.coe_sub, hr]

/-- The running pair after block j of a row cut into n blocks of m: a real shift M and the sum, over the entries of
    blocks 0 … j, of exp (entry − M). -/
def Running {n m : ℕ} (σ : Fin (n * m) → ℝ) (j : ℕ) (mv lv : EReal) : Prop :=
  ∃ M : ℝ, mv = M ∧ lv = ((∑ t ∈ Finset.univ.filter (fun t : Fin n => t.val ≤ j), ∑ i : Fin m, Real.exp (σ (flat t i) - M) : ℝ) : EReal)

/-- The first block, from the pair (−∞, 0). -/
theorem running_first {n m : ℕ} (hm : 0 < m) (σ : Fin (n * m) → ℝ) (t0 : Fin n) (h0 : t0.val = 0) (g : Fin m → EReal)
    (hg : ∀ i, g i = σ (flat t0 i)) :
    Running σ 0 (max (⊥ : EReal) ((Finset.univ : Finset (Fin m)).fold max (⊥ : EReal) g))
      (Ideal.exp ((⊥ : EReal) - max (⊥ : EReal) ((Finset.univ : Finset (Fin m)).fold max (⊥ : EReal) g)) * 0
        + ∑ i, Ideal.exp (g i - max (⊥ : EReal) ((Finset.univ : Finset (Fin m)).fold max (⊥ : EReal) g))) := by
  obtain ⟨M, hM⟩ := fold_max_real hm g (fun i => σ (flat t0 i)) hg
  have hmax : max (⊥ : EReal) (M : EReal) = M := max_eq_right bot_le
  rw [hM, hmax]
  refine ⟨M, rfl, ?_⟩
  have hfilter : Finset.univ.filter (fun t : Fin n => t.val ≤ 0) = {t0} := by
    ext t
    simp only [Finset.mem_filter, Finset.mem_univ, true_and, Finset.mem_singleton]
    constructor
    · intro h; apply Fin.ext; omega
    · intro h; rw [h, h0]
  rw [hfilter, Finset.sum_singleton, coe_sum, EReal.bot_sub, Ideal.exp_bot, zero_mul, zero_add]
  exact Finset.sum_congr rfl fun i _ => by rw [hg, ← EReal.coe_sub, Ideal.exp_coe]

/-- One more block: the shift becomes the larger of the old shift and the block's maximum, the old sum is rescaled
    by exp (old − new) and the block's terms are added. -/
theorem running_next {n m : ℕ} (hm : 0 < m) (σ : Fin (n * m) → ℝ) (j : ℕ) (t1 : Fin n) (h1 : t1.val = j + 1) (g : Fin m → EReal)
    (hg : ∀ i, g i = σ (flat t1 i)) (mP lP : EReal) (hP : Running σ j mP lP) :
    Running σ (j + 1) (max mP ((Finset.univ : Finset (Fin m)).fold max (⊥ : EReal) g))
      (Ideal.exp (mP - max mP ((Finset.univ : Finset (Fin m)).fold max (⊥ : EReal) g)) * lP
        + ∑ i, Ideal.exp (g i - max mP ((Finset.univ : Finset (Fin m)).fold max (⊥ : EReal) g))) := by
  obtain ⟨Mp, hmP, hlP⟩ := hP
  obtain ⟨Mg, hMg⟩ := fold_max_real hm g (fun i => σ (flat t1 i)) hg
  obtain ⟨M', hM'⟩ : ∃ M' : ℝ, max (Mp : EReal) (Mg : EReal) = M' := by
    rcases le_total (Mp : EReal) (Mg : EReal) with h | h
    · exact ⟨Mg, max_eq_right h⟩
    · exact ⟨Mp, max_eq_left h⟩
  rw [hMg, hmP, hM', hlP]
  refine ⟨M', rfl, ?_⟩
  have hfilter : Finset.univ.filter (fun t : Fin n => t.val ≤ j + 1)
      = insert t1 (Finset.univ.filter (fun t : Fin n => t.val ≤ j)) := by
    ext t
    simp only [Finset.mem_filter, Finset.mem_univ, true_and, Finset.mem_insert]
    constructor
    · intro h
      by_cases ht : t.val ≤ j
      · exact Or.inr ht
      · left; apply Fin.ext; omega
    · rintro (h | h)
      · rw [h, h1]
      · omega
  have hnotin : t1 ∉ Finset.univ.filter (fun t : Fin n => t.val ≤ j) := by
    simp only [Finset.mem_filter, Finset.mem_univ, true_and]; omega
  have hblock : (∑ i, Ideal.exp (g i - (M' : EReal))) = ((∑ i : Fin m, Real.exp (σ (flat t1 i) - M') : ℝ) : EReal) := by
    rw [coe_sum]; exact Finset.sum_congr rfl fun i _ => by rw [hg, ← EReal.coe_sub, Ideal.exp_coe]
  have hreal : Real.exp (Mp - M') * (∑ t ∈ Finset.univ.filter (fun t : Fin n => t.val ≤ j), ∑ i : Fin m, Real.exp (σ (flat t i) - Mp))
      = ∑ t ∈ Finset.univ.filter (fun t : Fin n => t.val ≤ j), ∑ i : Fin m, Real.exp (σ (flat t i) - M') := by
    rw [Finset.mul_sum]; refine Finset.sum_congr rfl fun t _ => ?_
    rw [Finset.mul_sum]; refine Finset.sum_congr rfl fun i _ => ?_
    rw [← Real.exp_add]; congr 1; ring
  rw [hfilter, Finset.sum_insert hnotin, hblock, ← EReal.coe_sub, Ideal.exp_coe, ← EReal.coe_mul, ← EReal.coe_add, hreal,
    add_comm]

/-- After the last block the sum runs over the whole row. -/
theorem running_last {n m : ℕ} (σ : Fin (n * m) → ℝ) (j : ℕ) (hj : n ≤ j + 1) (mv lv : EReal) (h : Running σ j mv lv) :
    ∃ M : ℝ, mv = M ∧ lv = ((∑ u, Real.exp (σ u - M) : ℝ) : EReal) := by
  obtain ⟨M, hmv, hlv⟩ := h
  refine ⟨M, hmv, ?_⟩
  have hfilter : Finset.univ.filter (fun t : Fin n => t.val ≤ j) = Finset.univ := by
    apply Finset.filter_true_of_mem; intro t _; have := t.isLt; omega
  rw [hlv, hfilter, sum_blocks (fun u => Real.exp (σ u - M))]

end Cert.Jsd

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.StatsPieces.lean ====
/-
  The statistics kernel (the first of the two launches) keeps, per row of a block of 512 rows, a running maximum and a
  running sum of exponentials for the student's logits and the same pair for the teacher's, one tile of 256 vocabulary
  entries per grid point. This module reads what each of the body's two control cases leaves in those four columns: at
  a row block's first tile the columns are first reset to −∞ and 0, at the other tiles they start from what the tile
  before left; in both cases the new contents are the body's arithmetic of the point's input blocks and the old columns.
-/
import proofs.«159389_j37958920962547_1_alg».proof.Proof.Gen.KernelIdeal.Frame
import proofs.«159389_j37958920962547_1_alg».proof.Proof.JsdLaw
import proofs.«159389_j37958920962547_1_alg».proof.Proof.LibColumnLayout
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.StatsPieces

open Cert.KernelIdeal Cert.KernelIdeal.Gen Cert.Jsd

variable {F : FTy → Type} [FloatOps F]

theorem hz : (![0, 0] : Fin 2 → Nat) = fun _ => 0 := funext fun a => by fin_cases a <;> rfl

variable (c : Dev nD) (i : grid0.Coords)
  (a2 : Memref sig .tc .vmem S512x2048 .bf16) (h2 : a2.IsWhole) (a3 : Memref sig .tc .vmem S512x4096 .bf16) (h3 : a3.IsWhole)
  (a4 : Memref sig .tc .vmem S256x2048 .bf16) (h4 : a4.IsWhole) (a5 : Memref sig .tc .vmem S256x4096 .bf16) (h5 : a5.IsWhole)
  (a6 : Memref sig .tc .vmem S512x1 .f32) (h6 : a6.IsWhole) (a7 : Memref sig .tc .vmem S512x1 .f32) (h7 : a7.IsWhole)
  (a8 : Memref sig .tc .vmem S512x1 .f32) (h8 : a8.IsWhole) (a9 : Memref sig .tc .vmem S512x1 .f32) (h9 : a9.IsWhole)
  (x0 : Vec F S512x2048 .bf16) (x1 : Vec F S512x4096 .bf16) (x2 : Vec F S256x2048 .bf16) (x3 : Vec F S256x4096 .bf16)

/-! The contents each case of the statistics kernel leaves in its four running columns, as the body's arithmetic of the
    point's input blocks (and, away from a row block's first tile, of what the tile before left). -/

theorem out_B_4 (hc : ¬cond0_0 i) (p4 p5 p6 p7 : Vec F S512x1 .f32) :
    out0_B_4 c i a2 h2 a3 h3 a4 h4 a5 h5 a6 h6 a7 h7 a8 h8 a9 h9 hc x0 x1 x2 x3 p4 p5 p6 p7 = k0_pay9 x0 x2 p4 := by
  unfold out0_B_4
  rw [View.read_writes_eq_canon _ _ _ (cover0_B_4 c i a2 h2 a3 h3 a4 h4 a5 h5 a6 h6 a7 h7 a8 h8 a9 h9 hc x0 x1 x2 x3 p4 p5 p6 p7)]
  unfold kernelRun0_B
  dsimp only
  sl_unfold_words
  rw [View.canon_unit_zero hz]
  simp only [View.readAt_eq_ld, h2.read_unread, h4.read_unread, h6.read_unread, View.ld_unit_zero (S := S512x2048) hz,
    View.ld_unit_zero (S := S256x2048) hz, View.ld_unit_zero (S := S512x1) hz]

theorem out_B_5 (hc : ¬cond0_0 i) (p4 p5 p6 p7 : Vec F S512x1 .f32) :
    out0_B_5 c i a2 h2 a3 h3 a4 h4 a5 h5 a6 h6 a7 h7 a8 h8 a9 h9 hc x0 x1 x2 x3 p4 p5 p6 p7 = k0_pay10 x0 x2 p4 p4 p5 := by
  unfold out0_B_5
  rw [View.read_writes_eq_canon _ _ _ (cover0_B_5 c i a2 h2 a3 h3 a4 h4 a5 h5 a6 h6 a7 h7 a8 h8 a9 h9 hc x0 x1 x2 x3 p4 p5 p6 p7)]
  unfold kernelRun0_B
  dsimp only
  sl_unfold_words
  rw [View.canon_unit_zero hz]
  simp only [View.readAt_eq_ld, h2.read_unread, h4.read_unread, h6.read_unread, h7.read_unread, View.ld_unit_zero (S := S512x2048) hz,
    View.ld_unit_zero (S := S256x2048) hz, View.ld_unit_zero (S := S512x1) hz]

theorem out_A_4 (hc : cond0_0 i) :
    out0_A_4 c i a2 h2 a3 h3 a4 h4 a5 h5 a6 h6 a7 h7 a8 h8 a9 h9 hc x0 x1 x2 x3 = k0_pay9 x0 x2 k0_pay4 := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S512x1) hz, View.readCov_unit_zero (S := S512x1) _ hz]
  simp only [View.readAt_eq_ld, h2.read_unread, h4.read_unread, View.ld_unit_zero (S := S512x2048) hz,
    View.ld_unit_zero (S := S256x2048) hz, View.ld_unit_zero (S := S512x1) hz]

theorem out_A_5 (hc : cond0_0 i) :
    out0_A_5 c i a2 h2 a3 h3 a4 h4 a5 h5 a6 h6 a7 h7 a8 h8 a9 h9 hc x0 x1 x2 x3 = k0_pay10 x0 x2 k0_pay4 k0_pay4 k0_pay5 := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S512x1) hz, View.readCov_unit_zero (S := S512x1) _ hz,
    View.readCov_unit_zero (S := S512x1) _ hz]
  simp only [View.readAt_eq_ld, h2.read_unread, h4.read_unread, View.ld_unit_zero (S := S512x2048) hz,
    View.ld_unit_zero (S := S256x2048) hz, View.ld_unit_zero (S := S512x1) hz]

theorem out_B_6 (hc : ¬cond0_0 i) (p4 p5 p6 p7 : Vec F S512x1 .f32) :
    out0_B_6 c i a2 h2 a3 h3 a4 h4 a5 h5 a6 h6 a7 h7 a8 h8 a9 h9 hc x0 x1 x2 x3 p4 p5 p6 p7 = k0_pay2 (k0_pay11 x1) (k0_pay12 x3) p6 := by
  unfold out0_B_6
  rw [View.read_writes_eq_canon _ _ _ (cover0_B_6 c i a2 h2 a3 h3 a4 h4 a5 h5 a6 h6 a7 h7 a8 h8 a9 h9 hc x0 x1 x2 x3 p4 p5 p6 p7)]
  unfold kernelRun0_B
  dsimp only
  sl_unfold_words
  rw [View.canon_unit_zero hz]
  simp only [View.readAt_eq_ld, h3.read_unread, h5.read_unread, h8.read_unread, View.ld_unit_zero (S := S512x4096) hz,
    View.ld_unit_zero (S := S256x4096) hz, View.ld_unit_zero (S := S512x1) hz]

theorem out_B_7 (hc : ¬cond0_0 i) (p4 p5 p6 p7 : Vec F S512x1 .f32) :
    out0_B_7 c i a2 h2 a3 h3 a4 h4 a5 h5 a6 h6 a7 h7 a8 h8 a9 h9 hc x0 x1 x2 x3 p4 p5 p6 p7 = k0_pay3 (k0_pay11 x1) (k0_pay12 x3) p6 p6 p7 := by
  unfold out0_B_7
  rw [View.read_writes_eq_canon _ _ _ (cover0_B_7 c i a2 h2 a3 h3 a4 h4 a5 h5 a6 h6 a7 h7 a8 h8 a9 h9 hc x0 x1 x2 x3 p4 p5 p6 p7)]
  unfold kernelRun0_B
  dsimp only
  sl_unfold_words
  rw [View.canon_unit_zero hz]
  simp only [View.readAt_eq_ld, h3.read_unread, h5.read_unread, h8.read_unread, h9.read_unread, View.ld_unit_zero (S := S512x4096) hz,
    View.ld_unit_zero (S := S256x4096) hz, View.ld_unit_zero (S := S512x1) hz]

theorem out_A_6 (hc : cond0_0 i) :
    out0_A_6 c i a2 h2 a3 h3 a4 h4 a5 h5 a6 h6 a7 h7 a8 h8 a9 h9 hc x0 x1 x2 x3 = k0_pay2 (k0_pay11 x1) (k0_pay12 x3) k0_pay6 := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S512x1) hz, View.readCov_unit_zero (S := S512x1) _ hz]
  simp only [View.readAt_eq_ld, h3.read_unread, h5.read_unread, View.ld_unit_zero (S := S512x4096) hz,
    View.ld_unit_zero (S := S256x4096) hz, View.ld_unit_zero (S := S512x1) hz]

theorem out_A_7 (hc : cond0_0 i) :
    out0_A_7 c i a2 h2 a3 h3 a4 h4 a5 h5 a6 h6 a7 h7 a8 h8 a9 h9 hc x0 x1 x2 x3 = k0_pay3 (k0_pay11 x1) (k0_pay12 x3) k0_pay6 k0_pay6 k0_pay7 := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S512x1) hz, View.readCov_unit_zero (S := S512x1) _ hz,
    View.readCov_unit_zero (S := S512x1) _ hz]
  simp only [View.readAt_eq_ld, h3.read_unread, h5.read_unread, View.ld_unit_zero (S := S512x4096) hz,
    View.ld_unit_zero (S := S256x4096) hz, View.ld_unit_zero (S := S512x1) hz]

end Cert.KernelIdeal.StatsPieces
end
-- ==== Proof.TileLogits.lean ====
/-
  A tile's logits: the product of a block of 512 rows of activations with the transpose of a block of 256 rows of
  weights, accumulated into zero, holds at (r, v) the inner product of activation row r and weight row v. Stated for the
  student's (2048 features) and the teacher's (4096 features) products, as both kernels form them.
-/
import proofs.«159389_j37958920962547_1_alg».proof.Proof.Gen.KernelIdeal.Skeleton
import proofs.«159389_j37958920962547_1_alg».proof.Proof.JsdLaw
import proofs.«159389_j37958920962547_1_alg».proof.Proof.LibColumnLayout
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.TileLogits

open Cert.KernelIdeal Cert.KernelIdeal.Gen

theorem lhs_s_0 (i : S512x256.Idx) (q : dot_S512x2048_S256x2048_S512x256_1_1_0_0_n_n.contr.Idx) : (dot_S512x2048_S256x2048_S512x256_1_1_0_0_n_n.lhsIdx i q 0).val = (i 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_s_1 (i : S512x256.Idx) (q : dot_S512x2048_S256x2048_S512x256_1_1_0_0_n_n.contr.Idx) : (dot_S512x2048_S256x2048_S512x256_1_1_0_0_n_n.lhsIdx i q 1).val = (q ⟨0, by decide⟩).val :=
  dot_S512x2048_S256x2048_S512x256_1_1_0_0_n_n.lhsIdx_val_of_single rfl i q
theorem rhs_s_0 (i : S512x256.Idx) (q : dot_S512x2048_S256x2048_S512x256_1_1_0_0_n_n.contr.Idx) : (dot_S512x2048_S256x2048_S512x256_1_1_0_0_n_n.rhsIdx i q 0).val = (i 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_s_1 (i : S512x256.Idx) (q : dot_S512x2048_S256x2048_S512x256_1_1_0_0_n_n.contr.Idx) : (dot_S512x2048_S256x2048_S512x256_1_1_0_0_n_n.rhsIdx i q 1).val = (q ⟨0, by decide⟩).val :=
  dot_S512x2048_S256x2048_S512x256_1_1_0_0_n_n.rhsIdx_val_of_single rfl i q

/-- Entry (r, v) of the tile's logits: row r of the activations block against row v of the weights block. -/
theorem student_stats_logit (x : FVec Ideal S512x2048 .bf16) (w : FVec Ideal S256x2048 .bf16) (r : Fin 512) (v : Fin 256) :
    k0_pay8 (F := Ideal) x w (ix2 r v) = ∑ k : Fin 2048, x (ix2 r k) * w (ix2 v k) := by
  unfold k0_pay8
  refine (Ideal.matmul_constant_zero_apply dot_S512x2048_S256x2048_S512x256_1_1_0_0_n_n none _ _ (ix2 r v)).trans ?_
  rw [← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 r v) ((contrEquiv1 dot_S512x2048_S256x2048_S512x256_1_1_0_0_n_n 2048 rfl rfl).symm k) = ix2 r k := funext fun a => Fin.ext (by
    match a with
    | ⟨0, _⟩ => exact lhs_s_0 _ _
    | ⟨1, _⟩ => exact (lhs_s_1 _ _).trans hk)
  have er : dot_S512x2048_S256x2048_S512x256_1_1_0_0_n_n.rhsIdx (ix2 r v) ((contrEquiv1 dot_S512x2048_S256x2048_S512x256_1_1_0_0_n_n 2048 rfl rfl).symm k) = ix2 v k := funext fun a => Fin.ext (by
    match a with
    | ⟨0, _⟩ => exact rhs_s_0 _ _
    | ⟨1, _⟩ => exact (rhs_s_1 _ _).trans hk)
  rw [el, er, shapeCast_self, shapeCast_self]

theorem lhs_t_0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_t_1 (i : S512x256.Idx) (q : dot_S512x4096_S256x4096_S512x256_1_1_0_0_n_n.contr.Idx) : (dot_S512x4096_S256x4096_S512x256_1_1_0_0_n_n.lhsIdx i q 1).val = (q ⟨0, by decide⟩).val :=
  dot_S512x4096_S256x4096_S512x256_1_1_0_0_n_n.lhsIdx_val_of_single rfl i q
theorem rhs_t_0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_t_1 (i : S512x256.Idx) (q : dot_S512x4096_S256x4096_S512x256_1_1_0_0_n_n.contr.Idx) : (dot_S512x4096_S256x4096_S512x256_1_1_0_0_n_n.rhsIdx i q 1).val = (q ⟨0, by decide⟩).val :=
  dot_S512x4096_S256x4096_S512x256_1_1_0_0_n_n.rhsIdx_val_of_single rfl i q

/-- Entry (r, v) of the tile's logits: row r of the activations block against row v of the weights block. -/
theorem teacher_stats_logit (x : FVec Ideal S512x4096 .bf16) (w : FVec Ideal S256x4096 .bf16) (r : Fin 512) (v : Fin 256) :
    k0_pay1 (F := Ideal) (k0_pay11 x) (k0_pay12 w) (ix2 r v) = ∑ k : Fin 4096, x (ix2 r k) * w (ix2 v k) := by
  unfold k0_pay1 k0_pay11 k0_pay12
  rw [shapeCast_self, shapeCast_self]
  refine (Ideal.matmul_constant_zero_apply dot_S512x4096_S256x4096_S512x256_1_1_0_0_n_n none _ _ (ix2 r v)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 r v) ((contrEquiv1 dot_S512x4096_S256x4096_S512x256_1_1_0_0_n_n 4096 rfl rfl).symm k) = ix2 r k := funext fun a => Fin.ext (by
    match a with
    | ⟨0, _⟩ => exact lhs_t_0 _ _
    | ⟨1, _⟩ => exact (lhs_t_1 _ _).trans hk)
  have er : dot_S512x4096_S256x4096_S512x256_1_1_0_0_n_n.rhsIdx (ix2 r v) ((contrEquiv1 dot_S512x4096_S256x4096_S512x256_1_1_0_0_n_n 4096 rfl rfl).symm k) = ix2 v k := funext fun a => Fin.ext (by
    match a with
    | ⟨0, _⟩ => exact rhs_t_0 _ _
    | ⟨1, _⟩ => exact (rhs_t_1 _ _).trans hk)
  rw [el, er]

end Cert.KernelIdeal.TileLogits
end
-- ==== Proof.StatsColumns.lean ====
/-
  One tile's step of the running (maximum, sum of exponentials) pair of a row, read at the row: with T the tile's 512 × 256
  logits and (p, q) the pair the row held before,
      new maximum  m' = max p (max over the tile's entries of the row),
      new sum      = exp (p − m') · q + ∑ over the tile's entries v of exp (T v − m').
  The same step serves the student's columns and the teacher's.
-/
import proofs.«159389_j37958920962547_1_alg».proof.Proof.TileLogits

noncomputable section

open Idealize.ShloMosaic Idealize.ShloMosaic.ValueIdx
open scoped BigOperators

namespace Cert.KernelIdeal.StatsColumns

open Cert.KernelIdeal Cert.KernelIdeal.Gen Cert.Gcn.Layout

theorem vexp_apply {s : Shape} {φ : FTy} (a : FVec Ideal s φ) (i : s.Idx) : exp a i = Ideal.exp (a i) := rfl

theorem neg_inf_bits : Ideal.ofBits .f32 0xFF800000#32 = (⊥ : EReal) := by simp [Ideal.ofBits, Ideal.ieee]

theorem lift_row (r : Fin 512) (k : Fin 256) : reduces_S512x256_S512.lift (ix1 r) k = ix2 r k := by
  funext a
  apply Fin.ext
  match a with
  | ⟨0, _⟩ => rfl
  | ⟨1, _⟩ => rfl

/-- A row's maximum over the tile, as the column the kernel reshapes it to. -/
theorem rowmax_apply (T : FVec Ideal S512x256 .f32) (hφ : FKind.Formats .f32)
    (hacc : (0xFF800000#32 : BitVec 32) = FKind.maximumf.neutral .f32 hφ) (r : Fin 512) :
    shapeCast S512x1 (multiReduction (F := Ideal) .maximumf [1] S512 T 0xFF800000#32 reduces_S512x256_S512 hφ hacc) shapeCasts_S512_S512x1 (ix2 r (0 : Fin 1))
      = (Finset.univ : Finset (Fin 256)).fold max (⊥ : EReal) (fun v => T (ix2 r v)) := by
  refine (shapeCast_a_a1_apply _ shapeCasts_S512_S512x1 r 0).trans ?_
  refine (Ideal.multiReduction_maximumf_single T 0xFF800000#32 reduces_S512x256_S512 hφ hacc (ix1 r)).trans ?_
  have e : (T ∘ reduces_S512x256_S512.lift (ix1 r)) = fun v : Fin 256 => T (ix2 r v) := funext fun k => congrArg T (lift_row r k)
  rw [e]
  exact congrArg (fun z => (Finset.univ : Finset (Fin 256)).fold max z (fun v => T (ix2 r v))) neg_inf_bits

/-- A row's sum over the tile, as the column the kernel reshapes it to. -/
theorem rowsum_apply (T : FVec Ideal S512x256 .f32) (hφ : FKind.Formats .f32)
    (hacc : (0x00000000#32 : BitVec 32) = FKind.add.neutral .f32 hφ) (r : Fin 512) :
    shapeCast S512x1 (multiReduction (F := Ideal) .add [1] S512 T 0x00000000#32 reduces_S512x256_S512 hφ hacc) shapeCasts_S512_S512x1 (ix2 r (0 : Fin 1))
      = ∑ v : Fin 256, T (ix2 r v) := by
  refine (shapeCast_a_a1_apply _ shapeCasts_S512_S512x1 r 0).trans ?_
  refine (Ideal.multiReduction_add_single T 0x00000000#32 reduces_S512x256_S512 hφ hacc (ix1 r)).trans ?_
  exact Finset.sum_congr rfl fun k _ => congrArg T (lift_row r k)

/-- The student's new running maximum at row r. -/
theorem student_max (x : FVec Ideal S512x2048 .bf16) (w : FVec Ideal S256x2048 .bf16) (p : FVec Ideal S512x1 .f32) (r : Fin 512) :
    k0_pay9 (F := Ideal) x w p (ix2 r (0 : Fin 1))
      = max (p (ix2 r 0)) ((Finset.univ : Finset (Fin 256)).fold max (⊥ : EReal) (fun v => k0_pay8 (F := Ideal) x w (ix2 r v))) := by
  unfold k0_pay9
  refine (maximumf_apply _ _ _).trans ?_
  rw [shapeCast_self]
  exact congrArg (max (p (ix2 r 0))) (rowmax_apply (k0_pay8 (F := Ideal) x w) _ _ r)

/-- The student's new running sum at row r. -/
theorem student_sum (x : FVec Ideal S512x2048 .bf16) (w : FVec Ideal S256x2048 .bf16) (p p' q : FVec Ideal S512x1 .f32) (r : Fin 512) :
    k0_pay10 (F := Ideal) x w p p' q (ix2 r (0 : Fin 1))
      = Ideal.exp (p' (ix2 r 0) - k0_pay9 (F := Ideal) x w p (ix2 r 0)) * q (ix2 r 0)
        + ∑ v : Fin 256, Ideal.exp (k0_pay8 (F := Ideal) x w (ix2 r v) - k0_pay9 (F := Ideal) x w p (ix2 r 0)) := by
  unfold k0_pay10
  refine (addf_apply _ _ _).trans ?_
  refine congrArg₂ (· + ·) ?_ ?_
  · refine (mulf_apply _ _ _).trans ?_
    rw [shapeCast_self, shapeCast_self]
    rfl
  · refine (rowsum_apply _ _ _ r).trans ?_
    refine Finset.sum_congr rfl fun v _ => ?_
    refine (vexp_apply _ _).trans ?_
    refine congrArg Ideal.exp ?_
    refine (subf_apply _ _ _).trans ?_
    exact congrArg (k0_pay8 (F := Ideal) x w (ix2 r v) - ·) (broadcastTo_a1_ab_apply _ broadcasts_S512x1_S512x256 r v)

/-- The teacher's new running maximum at row r. -/
theorem teacher_max (x : FVec Ideal S512x4096 .bf16) (w : FVec Ideal S256x4096 .bf16) (p : FVec Ideal S512x1 .f32) (r : Fin 512) :
    k0_pay2 (F := Ideal) x w p (ix2 r (0 : Fin 1))
      = max (p (ix2 r 0)) ((Finset.univ : Finset (Fin 256)).fold max (⊥ : EReal) (fun v => k0_pay1 (F := Ideal) x w (ix2 r v))) := by
  unfold k0_pay2
  refine (maximumf_apply _ _ _).trans ?_
  rw [shapeCast_self]
  exact congrArg (max (p (ix2 r 0))) (rowmax_apply (k0_pay1 (F := Ideal) x w) _ _ r)

/-- The teacher's new running sum at row r. -/
theorem teacher_sum (x : FVec Ideal S512x4096 .bf16) (w : FVec Ideal S256x4096 .bf16) (p p' q : FVec Ideal S512x1 .f32) (r : Fin 512) :
    k0_pay3 (F := Ideal) x w p p' q (ix2 r (0 : Fin 1))
      = Ideal.exp (p' (ix2 r 0) - k0_pay2 (F := Ideal) x w p (ix2 r 0)) * q (ix2 r 0)
        + ∑ v : Fin 256, Ideal.exp (k0_pay1 (F := Ideal) x w (ix2 r v) - k0_pay2 (F := Ideal) x w p (ix2 r 0)) := by
  unfold k0_pay3
  refine (addf_apply _ _ _).trans ?_
  refine congrArg₂ (· + ·) ?_ ?_
  · refine (mulf_apply _ _ _).trans ?_
    rw [shapeCast_self, shapeCast_self]
    rfl
  · refine (rowsum_apply _ _ _ r).trans ?_
    refine Finset.sum_congr rfl fun v _ => ?_
    refine (vexp_apply _ _).trans ?_
    refine congrArg Ideal.exp ?_
    refine (subf_apply _ _ _).trans ?_
    exact congrArg (k0_pay1 (F := Ideal) x w (ix2 r v) - ·) (broadcastTo_a1_ab_apply _ broadcasts_S512x1_S512x256 r v)

end Cert.KernelIdeal.StatsColumns
end
-- ==== Proof.StatsRun.lean ====
/-
  The statistics kernel over its grid of 4 row blocks × 125 vocabulary tiles. Point t works on rows 512·(t / 125) … and
  on vocabulary entries 256·(t mod 125) …; the four running columns of a row block are reset at its first tile and carried
  from tile to tile. By induction on the point, after tile j of a row's block the student's columns hold a real shift M
  and the sum over the row's first 256·(j+1) logits s of exp (s − M) (and the teacher's columns the same for the
  teacher's logits), whenever the logits are real numbers; after the last tile the sum runs over the whole row, and that
  is what the four [2048, 1] result arrays end holding.
-/
import proofs.«159389_j37958920962547_1_alg».proof.Proof.StatsPieces
import proofs.«159389_j37958920962547_1_alg».proof.Proof.StatsColumns

noncomputable section

open Idealize.ShloMosaic Idealize.ShloMosaic.TcCoe Idealize.SL.Sem Idealize.ShloMosaic.ValueIdx
open Idealize.ShloMosaic.Pipeline (Dat)
open scoped BigOperators

namespace Cert.KernelIdeal.StatsRun

open Cert.KernelIdeal Cert.KernelIdeal.Gen Cert.Jsd Cert.LibBlockSum
open Cert.KernelIdeal.StatsPieces Cert.KernelIdeal.StatsColumns Cert.KernelIdeal.TileLogits

/-- The printed index maps over the grid: the activations' and the columns' block is the row block t / 125, the weights'
    block the tile t mod 125. -/
theorem idx_facts : ∀ t : Fin cfg0.N,
    win0_0.index t (0 : Fin 2) = t.val / 125 ∧ win0_0.index t (1 : Fin 2) = 0
    ∧ win0_1.index t (0 : Fin 2) = t.val / 125 ∧ win0_1.index t (1 : Fin 2) = 0
    ∧ win0_2.index t (0 : Fin 2) = t.val % 125 ∧ win0_2.index t (1 : Fin 2) = 0
    ∧ win0_3.index t (0 : Fin 2) = t.val % 125 ∧ win0_3.index t (1 : Fin 2) = 0
    ∧ win0_4.index t (0 : Fin 2) = t.val / 125 ∧ win0_4.index t (1 : Fin 2) = 0
    ∧ win0_5.index t (0 : Fin 2) = t.val / 125 ∧ win0_5.index t (1 : Fin 2) = 0
    ∧ win0_6.index t (0 : Fin 2) = t.val / 125 ∧ win0_6.index t (1 : Fin 2) = 0
    ∧ win0_7.index t (0 : Fin 2) = t.val / 125 ∧ win0_7.index t (1 : Fin 2) = 0 :=
  (by decide +kernel : ∀ t : Fin grid0.N, _)

theorem point_lt (t : Fin cfg0.N) : t.val < 500 := by
  have h := t.isLt
  have hN : cfg0.N = 500 := N_0
  omega

/-- Row r of point t's row block, in the [2048, ·] arrays. -/
def rowOf (t : Fin cfg0.N) (r : Fin 512) : Fin 2048 := ⟨512 * (t.val / 125) + r.val, by have := point_lt t; have := r.isLt; omega⟩

/-- The tile of point t. -/
def tileOf (t : Fin cfg0.N) : Fin 125 := ⟨t.val % 125, Nat.mod_lt _ (by decide)⟩

variable (V : (c : Dev nD) → (b : Ref sig .tc) → Buf (Elt Ideal) ((c : Thread nD τ).loc b)) (c : Dev nD)

/-- The student activations' block at point t is rows 512·(t / 125) … of the array. -/
theorem blk0 (t : Fin cfg0.N) (r : Fin 512) (k : Fin 2048) :
    (iblk0 V c 0 t : FVec Ideal S512x2048 .bf16) (ix2 r k) = V c main_v0 (ix2 (rowOf t r) k) := by
  unfold iblk0
  rw [View.read_apply]
  show V c main_v0 _ = V c main_v0 _
  congr 1
  funext a
  apply Fin.ext
  obtain ⟨e0, e1, -⟩ := idx_facts t
  match a with
  | ⟨0, _⟩ => show win0_0.index t (0 : Fin 2) * 512 + 1 * r.val = 512 * (t.val / 125) + r.val; rw [e0]; omega
  | ⟨1, _⟩ => show win0_0.index t (1 : Fin 2) * 2048 + 1 * k.val = k.val; rw [e1]; omega

/-- The teacher activations' block at point t is rows 512·(t / 125) … of the array. -/
theorem blk1 (t : Fin cfg0.N) (r : Fin 512) (k : Fin 4096) :
    (iblk0 V c 1 t : FVec Ideal S512x4096 .bf16) (ix2 r k) = V c main_v2 (ix2 (rowOf t r) k) := by
  unfold iblk0
  rw [View.read_apply]
  show V c main_v2 _ = V c main_v2 _
  congr 1
  funext a
  apply Fin.ext
  obtain ⟨-, -, e0, e1, -⟩ := idx_facts t
  match a with
  | ⟨0, _⟩ => show win0_1.index t (0 : Fin 2) * 512 + 1 * r.val = 512 * (t.val / 125) + r.val; rw [e0]; omega
  | ⟨1, _⟩ => show win0_1.index t (1 : Fin 2) * 4096 + 1 * k.val = k.val; rw [e1]; omega

/-- The student weights' block at point t is rows 256·(t mod 125) … of the array. -/
theorem blk2 (t : Fin cfg0.N) (v : Fin 256) (k : Fin 2048) :
    (iblk0 V c 2 t : FVec Ideal S256x2048 .bf16) (ix2 v k) = V c main_v1 (ix2 (flat (tileOf t) v) k) := by
  unfold iblk0
  rw [View.read_apply]
  show V c main_v1 _ = V c main_v1 _
  congr 1
  funext a
  apply Fin.ext
  obtain ⟨-, -, -, -, e0, e1, -⟩ := idx_facts t
  match a with
  | ⟨0, _⟩ => show win0_2.index t (0 : Fin 2) * 256 + 1 * v.val = 256 * (t.val % 125) + v.val; rw [e0]; omega
  | ⟨1, _⟩ => show win0_2.index t (1 : Fin 2) * 2048 + 1 * k.val = k.val; rw [e1]; omega

/-- The teacher weights' block at point t is rows 256·(t mod 125) … of the array. -/
theorem blk3 (t : Fin cfg0.N) (v : Fin 256) (k : Fin 4096) :
    (iblk0 V c 3 t : FVec Ideal S256x4096 .bf16) (ix2 v k) = V c main_v3 (ix2 (flat (tileOf t) v) k) := by
  unfold iblk0
  rw [View.read_apply]
  show V c main_v3 _ = V c main_v3 _
  congr 1
  funext a
  apply Fin.ext
  obtain ⟨-, -, -, -, -, -, e0, e1, -⟩ := idx_facts t
  match a with
  | ⟨0, _⟩ => show win0_3.index t (0 : Fin 2) * 256 + 1 * v.val = 256 * (t.val % 125) + v.val; rw [e0]; omega
  | ⟨1, _⟩ => show win0_3.index t (1 : Fin 2) * 4096 + 1 * k.val = k.val; rw [e1]; omega

/-- The student tile's logit (r, v) at point t is the logit of row rowOf t r for vocabulary entry 256·tile + v. -/
theorem student_tile (t : Fin cfg0.N) (r : Fin 512) (v : Fin 256) :
    k0_pay8 (F := Ideal) (iblk0 V c 0 t) (iblk0 V c 2 t) (ix2 r v) = logitAt (V c main_v0) (V c main_v1) (rowOf t r) (flat (tileOf t) v) := by
  refine (student_stats_logit (iblk0 V c 0 t) (iblk0 V c 2 t) r v).trans ?_
  unfold logitAt
  exact Finset.sum_congr rfl fun k _ => by rw [blk0 V c t r k, blk2 V c t v k]

/-- The teacher tile's logit (r, v) at point t likewise. -/
theorem teacher_tile (t : Fin cfg0.N) (r : Fin 512) (v : Fin 256) :
    k0_pay1 (F := Ideal) (k0_pay11 (iblk0 V c 1 t)) (k0_pay12 (iblk0 V c 3 t)) (ix2 r v) = logitAt (V c main_v2) (V c main_v3) (rowOf t r) (flat (tileOf t) v) := by
  refine (teacher_stats_logit (iblk0 V c 1 t) (iblk0 V c 3 t) r v).trans ?_
  unfold logitAt
  exact Finset.sum_congr rfl fun k _ => by rw [blk1 V c t r k, blk3 V c t v k]

set_option maxHeartbeats 4000000 in
/-- At a row block's first tile the four columns end at the body's arithmetic from the reset values. -/
theorem outs_first (t : Fin cfg0.N) (h0 : t.val % 125 = 0) :
    outsAt0 V c t.val t.isLt
      = (k0_pay9 (F := Ideal) (iblk0 V c 0 t) (iblk0 V c 2 t) (k0_pay4 (F := Ideal)), k0_pay10 (F := Ideal) (iblk0 V c 0 t) (iblk0 V c 2 t) (k0_pay4 (F := Ideal)) (k0_pay4 (F := Ideal)) (k0_pay5 (F := Ideal)),
         k0_pay2 (F := Ideal) (k0_pay11 (iblk0 V c 1 t)) (k0_pay12 (iblk0 V c 3 t)) (k0_pay6 (F := Ideal)),
         k0_pay3 (F := Ideal) (k0_pay11 (iblk0 V c 1 t)) (k0_pay12 (iblk0 V c 3 t)) (k0_pay6 (F := Ideal)) (k0_pay6 (F := Ideal)) (k0_pay7 (F := Ideal))) := by
  refine (outsAt0_A V c t h0).trans ?_
  refine Prod.ext ?_ (Prod.ext ?_ (Prod.ext ?_ ?_))
  · exact out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) ((hcond0_0 t).mpr h0)
  · exact out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) ((hcond0_0 t).mpr h0)
  · exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) ((hcond0_0 t).mpr h0)
  · exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) ((hcond0_0 t).mpr h0)

set_option maxHeartbeats 4000000 in
/-- At every other tile they end at the body's arithmetic from what the tile before left. -/
theorem outs_next (t : Fin cfg0.N) (h0 : ¬t.val % 125 = 0) :
    outsAt0 V c t.val t.isLt
      = (k0_pay9 (F := Ideal) (iblk0 V c 0 t) (iblk0 V c 2 t) (outsAt0 V c (t.val - 1) (Nat.lt_of_le_of_lt (Nat.sub_le _ _) t.isLt)).1,
         k0_pay10 (iblk0 V c 0 t) (iblk0 V c 2 t) (outsAt0 V c (t.val - 1) (Nat.lt_of_le_of_lt (Nat.sub_le _ _) t.isLt)).1
           (outsAt0 V c (t.val - 1) (Nat.lt_of_le_of_lt (Nat.sub_le _ _) t.isLt)).1 (outsAt0 V c (t.val - 1) (Nat.lt_of_le_of_lt (Nat.sub_le _ _) t.isLt)).2.1,
         k0_pay2 (k0_pay11 (iblk0 V c 1 t)) (k0_pay12 (iblk0 V c 3 t)) (outsAt0 V c (t.val - 1) (Nat.lt_of_le_of_lt (Nat.sub_le _ _) t.isLt)).2.2.1,
         k0_pay3 (k0_pay11 (iblk0 V c 1 t)) (k0_pay12 (iblk0 V c 3 t)) (outsAt0 V c (t.val - 1) (Nat.lt_of_le_of_lt (Nat.sub_le _ _) t.isLt)).2.2.1
           (outsAt0 V c (t.val - 1) (Nat.lt_of_le_of_lt (Nat.sub_le _ _) t.isLt)).2.2.1 (outsAt0 V c (t.val - 1) (Nat.lt_of_le_of_lt (Nat.sub_le _ _) t.isLt)).2.2.2) := by
  refine (outsAt0_B V c t h0).trans ?_
  refine Prod.ext ?_ (Prod.ext ?_ (Prod.ext ?_ ?_))
  · exact out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (fun h => h0 ((hcond0_0 t).mp h)) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-! ## The running pairs, by induction on the point -/

theorem pay4_apply (i : S512x1.Idx) : k0_pay4 (F := Ideal) i = (⊥ : EReal) := neg_inf_bits
theorem pay6_apply (i : S512x1.Idx) : k0_pay6 (F := Ideal) i = (⊥ : EReal) := neg_inf_bits
theorem pay5_apply (i : S512x1.Idx) : k0_pay5 (F := Ideal) i = (0 : EReal) := Ideal.ofBits_zero_f32
theorem pay7_apply (i : S512x1.Idx) : k0_pay7 (F := Ideal) i = (0 : EReal) := Ideal.ofBits_zero_f32

variable (σS σT : Fin 2048 → Fin (125 * 256) → ℝ)
  (hS : ∀ (R : Fin 2048) (u : Fin (125 * 256)), logitAt (V c main_v0) (V c main_v1) R u = σS R u)
  (hT : ∀ (R : Fin 2048) (u : Fin (125 * 256)), logitAt (V c main_v2) (V c main_v3) R u = σT R u)

/-- After the body at point n, row r of its row block holds the running pairs of the row's first (n mod 125) + 1 tiles. -/
def Inv (n : ℕ) (h : n < cfg0.N) (r : Fin 512) : Prop :=
  ∀ j, n % 125 = j →
    Running (n := 125) (m := 256) (σS (rowOf ⟨n, h⟩ r)) j ((outsAt0 V c n h).1 (ix2 r (0 : Fin 1))) ((outsAt0 V c n h).2.1 (ix2 r (0 : Fin 1)))
    ∧ Running (n := 125) (m := 256) (σT (rowOf ⟨n, h⟩ r)) j ((outsAt0 V c n h).2.2.1 (ix2 r (0 : Fin 1))) ((outsAt0 V c n h).2.2.2 (ix2 r (0 : Fin 1)))

include hS hT in
theorem inv_first (t : Fin cfg0.N) (h0 : t.val % 125 = 0) (r : Fin 512) : Inv V c σS σT t.val t.isLt r := by
  intro j hj
  have hj0 : j = 0 := by omega
  subst hj0
  rw [outs_first V c t h0]
  dsimp only
  have ht0 : (tileOf t).val = 0 := h0
  constructor
  · rw [student_sum (iblk0 V c 0 t) (iblk0 V c 2 t) k0_pay4 k0_pay4 k0_pay5 r, student_max (iblk0 V c 0 t) (iblk0 V c 2 t) k0_pay4 r,
      pay4_apply, pay5_apply]
    exact running_first (n := 125) (m := 256) (by decide) (σS (rowOf t r)) (tileOf t) ht0
      (fun v => k0_pay8 (F := Ideal) (iblk0 V c 0 t) (iblk0 V c 2 t) (ix2 r v))
      (fun v => (student_tile V c t r v).trans (hS _ _))
  · rw [teacher_sum (k0_pay11 (iblk0 V c 1 t)) (k0_pay12 (iblk0 V c 3 t)) k0_pay6 k0_pay6 k0_pay7 r,
      teacher_max (k0_pay11 (iblk0 V c 1 t)) (k0_pay12 (iblk0 V c 3 t)) k0_pay6 r, pay6_apply, pay7_apply]
    exact running_first (n := 125) (m := 256) (by decide) (σT (rowOf t r)) (tileOf t) ht0
      (fun v => k0_pay1 (F := Ideal) (k0_pay11 (iblk0 V c 1 t)) (k0_pay12 (iblk0 V c 3 t)) (ix2 r v))
      (fun v => (teacher_tile V c t r v).trans (hT _ _))

include hS hT in
theorem inv_next (t : Fin cfg0.N) (h0 : ¬t.val % 125 = 0) (r : Fin 512)
    (ih : Inv V c σS σT (t.val - 1) (Nat.lt_of_le_of_lt (Nat.sub_le _ _) t.isLt) r) : Inv V c σS σT t.val t.isLt r := by
  intro j hj
  obtain ⟨j', rfl⟩ : ∃ j', j = j' + 1 := ⟨j - 1, by omega⟩
  have hprev : (t.val - 1) % 125 = j' := by omega
  have hrow : rowOf ⟨t.val - 1, Nat.lt_of_le_of_lt (Nat.sub_le _ _) t.isLt⟩ r = rowOf t r := by
    apply Fin.ext
    show 512 * ((t.val - 1) / 125) + r.val = 512 * (t.val / 125) + r.val
    omega
  obtain ⟨ihS, ihT⟩ := ih j' hprev
  rw [hrow] at ihS ihT
  rw [outs_next V c t h0]
  dsimp only
  have ht1 : (tileOf t).val = j' + 1 := hj
  generalize outsAt0 V c (t.val - 1) (Nat.lt_of_le_of_lt (Nat.sub_le _ _) t.isLt) = prev at ihS ihT ⊢
  obtain ⟨p4, p5, p6, p7⟩ := prev
  dsimp only at ihS ihT ⊢
  constructor
  · rw [student_sum (iblk0 V c 0 t) (iblk0 V c 2 t) p4 p4 p5 r, student_max (iblk0 V c 0 t) (iblk0 V c 2 t) p4 r]
    exact running_next (n := 125) (m := 256) (by decide) (σS (rowOf t r)) j' (tileOf t) ht1
      (fun v => k0_pay8 (F := Ideal) (iblk0 V c 0 t) (iblk0 V c 2 t) (ix2 r v))
      (fun v => (student_tile V c t r v).trans (hS _ _)) (p4 (ix2 r 0)) (p5 (ix2 r 0)) ihS
  · rw [teacher_sum (k0_pay11 (iblk0 V c 1 t)) (k0_pay12 (iblk0 V c 3 t)) p6 p6 p7 r,
      teacher_max (k0_pay11 (iblk0 V c 1 t)) (k0_pay12 (iblk0 V c 3 t)) p6 r]
    exact running_next (n := 125) (m := 256) (by decide) (σT (rowOf t r)) j' (tileOf t) ht1
      (fun v => k0_pay1 (F := Ideal) (k0_pay11 (iblk0 V c 1 t)) (k0_pay12 (iblk0 V c 3 t)) (ix2 r v))
      (fun v => (teacher_tile V c t r v).trans (hT _ _)) (p6 (ix2 r 0)) (p7 (ix2 r 0)) ihT

include hS hT in
theorem inv_all : ∀ (n : ℕ) (h : n < cfg0.N) (r : Fin 512), Inv V c σS σT n h r := by
  intro n
  induction n with
  | zero => intro h r; exact inv_first V c σS σT hS hT ⟨0, h⟩ rfl r
  | succ n ih =>
    intro h r
    by_cases h0 : (n + 1) % 125 = 0
    · exact inv_first V c σS σT hS hT ⟨n + 1, h⟩ h0 r
    · exact inv_next V c σS σT hS hT ⟨n + 1, h⟩ h0 r (ih (Nat.lt_of_succ_lt h) r)

end Cert.KernelIdeal.StatsRun
end
-- ==== Proof.StatsFinal.lean ====
/-
  What the four [2048, 1] arrays hold after the statistics region. Each row block's four running columns are written
  back after its last tile, so row R of the arrays holds what the columns held, at R's place in its block, after the
  last tile of R's row block: for real logits, a real shift M and the sum over the whole row of exp (logit − M), for
  the student and for the teacher.
-/
import proofs.«159389_j37958920962547_1_alg».proof.Proof.StatsRun
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.StatsFinal

open Cert.KernelIdeal Cert.KernelIdeal.Gen Cert.Jsd Cert.LibBlockSum Cert.KernelIdeal.StatsRun

/-- The last point of the row block that holds row R: the point after which the block is written back. -/
def lastPt (R : Fin 2048) : Fin cfg0.N :=
  ⟨125 * (R.val / 512) + 124, lt_of_lt_of_eq (by have := R.isLt; omega) (show 500 = cfg0.N from N_0.symm)⟩

/-- Row R's place within its row block. -/
def inRow (R : Fin 2048) : Fin 512 := ⟨R.val % 512, Nat.mod_lt _ (by decide)⟩

theorem lastPt_rowOf (t : Fin cfg0.N) (h124 : t.val % 125 = 124) (r : Fin 512) : lastPt (rowOf t r) = t := by
  apply Fin.ext
  show 125 * ((512 * (t.val / 125) + r.val) / 512) + 124 = t.val
  have := r.isLt; omega

theorem inRow_rowOf (t : Fin cfg0.N) (r : Fin 512) : inRow (rowOf t r) = r := by
  apply Fin.ext
  show (512 * (t.val / 125) + r.val) % 512 = r.val
  have := r.isLt; omega

theorem rowOf_lastPt (R : Fin 2048) : rowOf (lastPt R) (inRow R) = R := by
  apply Fin.ext
  show 512 * ((125 * (R.val / 512) + 124) / 125) + R.val % 512 = R.val
  omega

variable (V : (c : Dev nD) → (b : Ref sig .tc) → Buf (Elt Ideal) ((c : Thread nD τ).loc b)) (c : Dev nD)

/-! ### Window 4: the student's row shift -/

/-- The column the region leaves: at row R what the row's block held after its last tile. -/
def G4 : S2048x1.Idx → EReal := fun idx =>
  (outsAt0 V c (lastPt (idx 0)).val (lastPt (idx 0)).isLt).1 (ix2 (inRow (idx 0)) (0 : Fin 1))

theorem G4_apply (idx : S2048x1.Idx) :
    G4 V c idx = (outsAt0 V c (lastPt (idx 0)).val (lastPt (idx 0)).isLt).1 (ix2 (inRow (idx 0)) (0 : Fin 1)) := rfl

/-- An index of the array is in point t's block iff each coordinate is in the block's range on its axis. -/
theorem mem_blk4 (t : Fin cfg0.N) (i : S2048x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v4_0).slice (win0_4.rect t)).set ↔ _
  rw [View.set_slice_whole, Rect.mem_set_unit]
  exact Iff.rfl

set_option maxRecDepth 65536 in
/-- What is written back after the last tile of a row block is that block of the column. -/
theorem flushed_eq4 (t : Fin cfg0.N) (hf : (cfg0.win 4).flush t = true) :
    (dat0 V c).flushed 4 t = ((cfg0.win 4).blk t).view.read (Elt Ideal) (G4 V c) := by
  have h124 : t.val % 125 = 124 := (flush0_4 t).mp hf
  show (cfg0.win 4).cut (grid0.coords t) ((dat0 V c).after 4 t) = _
  rw [after0_4]
  have key : ∀ (r : Fin 512) (u : Fin 1),
      (cfg0.win 4).cut (grid0.coords t) (outsAt0 V c t.val t.isLt).1 (ix2 r u)
        = ((cfg0.win 4).blk t).view.read (Elt Ideal) (G4 V c) (ix2 r u) := by
    intro r u
    obtain rfl : u = 0 := Subsingleton.elim _ _
    rw [View.read_apply]
    show (outsAt0 V c t.val t.isLt).1 (ix2 r (0 : Fin 1))
      = G4 V c (((cfg0.win 4).blk t).view.emb (ix2 r (0 : Fin 1)))
    have hrow : (((cfg0.win 4).blk t).view.emb (ix2 r (0 : Fin 1))) 0 = rowOf t r := by
      apply Fin.ext
      obtain ⟨-, -, -, -, -, -, -, -, e0, e1, -⟩ := idx_facts t
      show win0_4.index t (0 : Fin 2) * 512 + 1 * r.val = 512 * (t.val / 125) + r.val
      rw [e0]; omega
    rw [G4_apply, hrow, lastPt_rowOf t h124 r, inRow_rowOf t r]
  funext j
  have hj := eq_ix2 (n0 := 512) (n1 := 1) j
  rw [hj]
  exact key (j 0) (j 1)

/-- Every row of the array is in the block written back after the last tile of its row block. -/
theorem cover4 (i : S2048x1.Idx) :
    ∃ t : Fin cfg0.N, (cfg0.win 4).flush t = true ∧ i ∈ ((cfg0.win 4).blk t).view.set := by
  have hi0 : (i 0).val < 2048 := idx2_lt0 i
  have hi1 : (i 1).val < 1 := idx2_lt1 i
  have hlt : 125 * ((i 0).val / 512) + 124 < cfg0.N := lt_of_lt_of_eq (by omega) (show 500 = cfg0.N from N_0.symm)
  obtain ⟨t, htv⟩ : ∃ t : Fin cfg0.N, t.val = 125 * ((i 0).val / 512) + 124 := ⟨⟨_, hlt⟩, rfl⟩
  refine ⟨t, (flush0_4 t).mpr (by omega), ?_⟩
  rw [mem_blk4]
  obtain ⟨-, -, -, -, -, -, -, -, e0, e1, -⟩ := idx_facts t
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1 ≤ (i 1).val ∧ (i 1).val < win0_4.index t (1 : Fin 2) * 1 + 1
    rw [e1]; omega

/-- So the array ends holding the column. -/
theorem final4 : (dat0 V c).arrAt 4 cfg0.N = G4 V c :=
  (dat0 V c).arrAt_eq_of_cover 4 (G4 V c) (flushed_eq4 V c) (fun i => cover4 i)

/-! ### Window 5: the student's shifted sum -/

/-- The column the region leaves: at row R what the row's block held after its last tile. -/
def G5 : S2048x1.Idx → EReal := fun idx =>
  (outsAt0 V c (lastPt (idx 0)).val (lastPt (idx 0)).isLt).2.1 (ix2 (inRow (idx 0)) (0 : Fin 1))

theorem G5_apply (idx : S2048x1.Idx) :
    G5 V c idx = (outsAt0 V c (lastPt (idx 0)).val (lastPt (idx 0)).isLt).2.1 (ix2 (inRow (idx 0)) (0 : Fin 1)) := rfl

/-- An index of the array is in point t's block iff each coordinate is in the block's range on its axis. -/
theorem mem_blk5 (t : Fin cfg0.N) (i : S2048x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v4_1).slice (win0_5.rect t)).set ↔ _
  rw [View.set_slice_whole, Rect.mem_set_unit]
  exact Iff.rfl

set_option maxRecDepth 65536 in
/-- What is written back after the last tile of a row block is that block of the column. -/
theorem flushed_eq5 (t : Fin cfg0.N) (hf : (cfg0.win 5).flush t = true) :
    (dat0 V c).flushed 5 t = ((cfg0.win 5).blk t).view.read (Elt Ideal) (G5 V c) := by
  have h124 : t.val % 125 = 124 := (flush0_5 t).mp hf
  show (cfg0.win 5).cut (grid0.coords t) ((dat0 V c).after 5 t) = _
  rw [after0_5]
  have key : ∀ (r : Fin 512) (u : Fin 1),
      (cfg0.win 5).cut (grid0.coords t) (outsAt0 V c t.val t.isLt).2.1 (ix2 r u)
        = ((cfg0.win 5).blk t).view.read (Elt Ideal) (G5 V c) (ix2 r u) := by
    intro r u
    obtain rfl : u = 0 := Subsingleton.elim _ _
    rw [View.read_apply]
    show (outsAt0 V c t.val t.isLt).2.1 (ix2 r (0 : Fin 1))
      = G5 V c (((cfg0.win 5).blk t).view.emb (ix2 r (0 : Fin 1)))
    have hrow : (((cfg0.win 5).blk t).view.emb (ix2 r (0 : Fin 1))) 0 = rowOf t r := by
      apply Fin.ext
      obtain ⟨-, -, -, -, -, -, -, -, -, -, e0, e1, -⟩ := idx_facts t
      show win0_5.index t (0 : Fin 2) * 512 + 1 * r.val = 512 * (t.val / 125) + r.val
      rw [e0]; omega
    rw [G5_apply, hrow, lastPt_rowOf t h124 r, inRow_rowOf t r]
  funext j
  have hj := eq_ix2 (n0 := 512) (n1 := 1) j
  rw [hj]
  exact key (j 0) (j 1)

/-- Every row of the array is in the block written back after the last tile of its row block. -/
theorem cover5 (i : S2048x1.Idx) :
    ∃ t : Fin cfg0.N, (cfg0.win 5).flush t = true ∧ i ∈ ((cfg0.win 5).blk t).view.set := by
  have hi0 : (i 0).val < 2048 := idx2_lt0 i
  have hi1 : (i 1).val < 1 := idx2_lt1 i
  have hlt : 125 * ((i 0).val / 512) + 124 < cfg0.N := lt_of_lt_of_eq (by omega) (show 500 = cfg0.N from N_0.symm)
  obtain ⟨t, htv⟩ : ∃ t : Fin cfg0.N, t.val = 125 * ((i 0).val / 512) + 124 := ⟨⟨_, hlt⟩, rfl⟩
  refine ⟨t, (flush0_5 t).mpr (by omega), ?_⟩
  rw [mem_blk5]
  obtain ⟨-, -, -, -, -, -, -, -, -, -, e0, e1, -⟩ := idx_facts t
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1 ≤ (i 1).val ∧ (i 1).val < win0_5.index t (1 : Fin 2) * 1 + 1
    rw [e1]; omega

/-- So the array ends holding the column. -/
theorem final5 : (dat0 V c).arrAt 5 cfg0.N = G5 V c :=
  (dat0 V c).arrAt_eq_of_cover 5 (G5 V c) (flushed_eq5 V c) (fun i => cover5 i)

/-! ### Window 6: the teacher's row shift -/

/-- The column the region leaves: at row R what the row's block held after its last tile. -/
def G6 : S2048x1.Idx → EReal := fun idx =>
  (outsAt0 V c (lastPt (idx 0)).val (lastPt (idx 0)).isLt).2.2.1 (ix2 (inRow (idx 0)) (0 : Fin 1))

theorem G6_apply (idx : S2048x1.Idx) :
    G6 V c idx = (outsAt0 V c (lastPt (idx 0)).val (lastPt (idx 0)).isLt).2.2.1 (ix2 (inRow (idx 0)) (0 : Fin 1)) := rfl

/-- An index of the array is in point t's block iff each coordinate is in the block's range on its axis. -/
theorem mem_blk6 (t : Fin cfg0.N) (i : S2048x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v4_2).slice (win0_6.rect t)).set ↔ _
  rw [View.set_slice_whole, Rect.mem_set_unit]
  exact Iff.rfl

set_option maxRecDepth 65536 in
/-- What is written back after the last tile of a row block is that block of the column. -/
theorem flushed_eq6 (t : Fin cfg0.N) (hf : (cfg0.win 6).flush t = true) :
    (dat0 V c).flushed 6 t = ((cfg0.win 6).blk t).view.read (Elt Ideal) (G6 V c) := by
  have h124 : t.val % 125 = 124 := (flush0_6 t).mp hf
  show (cfg0.win 6).cut (grid0.coords t) ((dat0 V c).after 6 t) = _
  rw [after0_6]
  have key : ∀ (r : Fin 512) (u : Fin 1),
      (cfg0.win 6).cut (grid0.coords t) (outsAt0 V c t.val t.isLt).2.2.1 (ix2 r u)
        = ((cfg0.win 6).blk t).view.read (Elt Ideal) (G6 V c) (ix2 r u) := by
    intro r u
    obtain rfl : u = 0 := Subsingleton.elim _ _
    rw [View.read_apply]
    show (outsAt0 V c t.val t.isLt).2.2.1 (ix2 r (0 : Fin 1))
      = G6 V c (((cfg0.win 6).blk t).view.emb (ix2 r (0 : Fin 1)))
    have hrow : (((cfg0.win 6).blk t).view.emb (ix2 r (0 : Fin 1))) 0 = rowOf t r := by
      apply Fin.ext
      obtain ⟨-, -, -, -, -, -, -, -, -, -, -, -, e0, e1, -⟩ := idx_facts t
      show win0_6.index t (0 : Fin 2) * 512 + 1 * r.val = 512 * (t.val / 125) + r.val
      rw [e0]; omega
    rw [G6_apply, hrow, lastPt_rowOf t h124 r, inRow_rowOf t r]
  funext j
  have hj := eq_ix2 (n0 := 512) (n1 := 1) j
  rw [hj]
  exact key (j 0) (j 1)

/-- Every row of the array is in the block written back after the last tile of its row block. -/
theorem cover6 (i : S2048x1.Idx) :
    ∃ t : Fin cfg0.N, (cfg0.win 6).flush t = true ∧ i ∈ ((cfg0.win 6).blk t).view.set := by
  have hi0 : (i 0).val < 2048 := idx2_lt0 i
  have hi1 : (i 1).val < 1 := idx2_lt1 i
  have hlt : 125 * ((i 0).val / 512) + 124 < cfg0.N := lt_of_lt_of_eq (by omega) (show 500 = cfg0.N from N_0.symm)
  obtain ⟨t, htv⟩ : ∃ t : Fin cfg0.N, t.val = 125 * ((i 0).val / 512) + 124 := ⟨⟨_, hlt⟩, rfl⟩
  refine ⟨t, (flush0_6 t).mpr (by omega), ?_⟩
  rw [mem_blk6]
  obtain ⟨-, -, -, -, -, -, -, -, -, -, -, -, e0, e1, -⟩ := idx_facts t
  intro a
  match a with
  | ⟨0, _⟩ =>
    show win0_6.index t (0 : Fin 2) * 512 ≤ (i 0).val ∧ (i 0).val < win0_6.index t (0 : Fin 2) * 512 + 512
    rw [e0]; omega
  | ⟨1, _⟩ =>
    show win0_6.index t (1 : Fin 2) * 1 ≤ (i 1).val ∧ (i 1).val < win0_6.index t (1 : Fin 2) * 1 + 1
    rw [e1]; omega

/-- So the array ends holding the column. -/
theorem final6 : (dat0 V c).arrAt 6 cfg0.N = G6 V c :=
  (dat0 V c).arrAt_eq_of_cover 6 (G6 V c) (flushed_eq6 V c) (fun i => cover6 i)

/-! ### Window 7: the teacher's shifted sum -/

/-- The column the region leaves: at row R what the row's block held after its last tile. -/
def G7 : S2048x1.Idx → EReal := fun idx =>
  (outsAt0 V c (lastPt (idx 0)).val (lastPt (idx 0)).isLt).2.2.2 (ix2 (inRow (idx 0)) (0 : Fin 1))

theorem G7_apply (idx : S2048x1.Idx) :
    G7 V c idx = (outsAt0 V c (lastPt (idx 0)).val (lastPt (idx 0)).isLt).2.2.2 (ix2 (inRow (idx 0)) (0 : Fin 1)) := rfl

/-- An index of the array is in point t's block iff each coordinate is in the block's range on its axis. -/
theorem mem_blk7 (t : Fin cfg0.N) (i : S2048x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v4_3).slice (win0_7.rect t)).set ↔ _
  rw [View.set_slice_whole, Rect.mem_set_unit]
  exact Iff.rfl

set_option maxRecDepth 65536 in
/-- What is written back after the last tile of a row block is that block of the column. -/
theorem flushed_eq7 (t : Fin cfg0.N) (hf : (cfg0.win 7).flush t = true) :
    (dat0 V c).flushed 7 t = ((cfg0.win 7).blk t).view.read (Elt Ideal) (G7 V c) := by
  have h124 : t.val % 125 = 124 := (flush0_7 t).mp hf
  show (cfg0.win 7).cut (grid0.coords t) ((dat0 V c).after 7 t) = _
  rw [after0_7]
  have key : ∀ (r : Fin 512) (u : Fin 1),
      (cfg0.win 7).cut (grid0.coords t) (outsAt0 V c t.val t.isLt).2.2.2 (ix2 r u)
        = ((cfg0.win 7).blk t).view.read (Elt Ideal) (G7 V c) (ix2 r u) := by
    intro r u
    obtain rfl : u = 0 := Subsingleton.elim _ _
    rw [View.read_apply]
    show (outsAt0 V c t.val t.isLt).2.2.2 (ix2 r (0 : Fin 1))
      = G7 V c (((cfg0.win 7).blk t).view.emb (ix2 r (0 : Fin 1)))
    have hrow : (((cfg0.win 7).blk t).view.emb (ix2 r (0 : Fin 1))) 0 = rowOf t r := by
      apply Fin.ext
      obtain ⟨-, -, -, -, -, -, -, -, -, -, -, -, -, -, e0, e1⟩ := idx_facts t
      show win0_7.index t (0 : Fin 2) * 512 + 1 * r.val = 512 * (t.val / 125) + r.val
      rw [e0]; omega
    rw [G7_apply, hrow, lastPt_rowOf t h124 r, inRow_rowOf t r]
  funext j
  have hj := eq_ix2 (n0 := 512) (n1 := 1) j
  rw [hj]
  exact key (j 0) (j 1)

/-- Every row of the array is in the block written back after the last tile of its row block. -/
theorem cover7 (i : S2048x1.Idx) :
    ∃ t : Fin cfg0.N, (cfg0.win 7).flush t = true ∧ i ∈ ((cfg0.win 7).blk t).view.set := by
  have hi0 : (i 0).val < 2048 := idx2_lt0 i
  have hi1 : (i 1).val < 1 := idx2_lt1 i
  have hlt : 125 * ((i 0).val / 512) + 124 < cfg0.N := lt_of_lt_of_eq (by omega) (show 500 = cfg0.N from N_0.symm)
  obtain ⟨t, htv⟩ : ∃ t : Fin cfg0.N, t.val = 125 * ((i 0).val / 512) + 124 := ⟨⟨_, hlt⟩, rfl⟩
  refine ⟨t, (flush0_7 t).mpr (by omega), ?_⟩
  rw [mem_blk7]
  obtain ⟨-, -, -, -, -, -, -, -, -, -, -, -, -, -, e0, e1⟩ := idx_facts t
  intro a
  match a with
  | ⟨0, _⟩ =>
    show win0_7.index t (0 : Fin 2) * 512 ≤ (i 0).val ∧ (i 0).val < win0_7.index t (0 : Fin 2) * 512 + 512
    rw [e0]; omega
  | ⟨1, _⟩ =>
    show win0_7.index t (1 : Fin 2) * 1 ≤ (i 1).val ∧ (i 1).val < win0_7.index t (1 : Fin 2) * 1 + 1
    rw [e1]; omega

/-- So the array ends holding the column. -/
theorem final7 : (dat0 V c).arrAt 7 cfg0.N = G7 V c :=
  (dat0 V c).arrAt_eq_of_cover 7 (G7 V c) (flushed_eq7 V c) (fun i => cover7 i)

/-! ## The four columns, for real logits -/

variable (σS σT : Fin 2048 → Fin (125 * 256) → ℝ)
  (hS : ∀ (R : Fin 2048) (u : Fin (125 * 256)), logitAt (V c main_v0) (V c main_v1) R u = σS R u)
  (hT : ∀ (R : Fin 2048) (u : Fin (125 * 256)), logitAt (V c main_v2) (V c main_v3) R u = σT R u)

include hS hT in
/-- Row R of the four arrays after the region: a real shift and the whole row's shifted sum of exponentials, for the
    student and for the teacher. -/
theorem stats_final (R : Fin 2048) :
    (∃ M : ℝ, ((dat0 (F := Ideal) V c).arrAt 4 cfg0.N : (⟨2, ![2048, 1]⟩ : Shape).Idx → EReal) (ix2 R (0 : Fin 1)) = (M : EReal)
        ∧ ((dat0 (F := Ideal) V c).arrAt 5 cfg0.N : (⟨2, ![2048, 1]⟩ : Shape).Idx → EReal) (ix2 R (0 : Fin 1)) = ((∑ u : Fin (125 * 256), Real.exp (σS R u - M) : ℝ) : EReal))
    ∧ (∃ M : ℝ, ((dat0 (F := Ideal) V c).arrAt 6 cfg0.N : (⟨2, ![2048, 1]⟩ : Shape).Idx → EReal) (ix2 R (0 : Fin 1)) = (M : EReal)
        ∧ ((dat0 (F := Ideal) V c).arrAt 7 cfg0.N : (⟨2, ![2048, 1]⟩ : Shape).Idx → EReal) (ix2 R (0 : Fin 1)) = ((∑ u : Fin (125 * 256), Real.exp (σT R u - M) : ℝ) : EReal)) := by
  have hmod : (lastPt R).val % 125 = 124 := by
    show (125 * (R.val / 512) + 124) % 125 = 124
    omega
  obtain ⟨hs, ht⟩ := inv_all V c σS σT hS hT (lastPt R).val (lastPt R).isLt (inRow R) 124 hmod
  have hrow : rowOf ⟨(lastPt R).val, (lastPt R).isLt⟩ (inRow R) = R := rowOf_lastPt R
  rw [hrow] at hs ht
  constructor
  · obtain ⟨M, h1, h2⟩ := running_last (n := 125) (m := 256) (σS R) 124 (by decide) _ _ hs
    exact ⟨M, (congrFun (final4 V c) (ix2 R (0 : Fin 1))).trans h1, (congrFun (final5 V c) (ix2 R (0 : Fin 1))).trans h2⟩
  · obtain ⟨M, h1, h2⟩ := running_last (n := 125) (m := 256) (σT R) 124 (by decide) _ _ ht
    exact ⟨M, (congrFun (final6 V c) (ix2 R (0 : Fin 1))).trans h1, (congrFun (final7 V c) (ix2 R (0 : Fin 1))).trans h2⟩

end Cert.KernelIdeal.StatsFinal

end
-- ==== Proof.LossRegion.lean ====
/-
  The value of the loss region: the second kernel adds, tile by tile of 256 vocabulary entries, each row's shares of the
  Jensen–Shannon divergence into a [2048, 1] block that is reset at the first tile of every row block of 512 rows and
  written back after the last. So the array ends holding, at row R, the sum over all 32000 vocabulary entries of the
  share computed from the student's and the teacher's log-probabilities, each a logit less the row's log-normaliser
  given as a shift plus the logarithm of the shifted sum.
-/
import proofs.«159389_j37958920962547_1_alg».proof.Proof.Gen.KernelIdeal.Frame
import proofs.«159389_j37958920962547_1_alg».proof.Proof.JsdLaw
import proofs.«159389_j37958920962547_1_alg».proof.Proof.LibColumnLayout
import Idealize.ShloMosaic.Lib.Pipeline.Value
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.Jsd Cert.LibBlockSum

/-! ## What each case leaves in the output block, as the body's arithmetic of the blocks it loads -/

section Pieces
variable {F : FTy → Type} [FloatOps F]

theorem hz : (![0, 0] : Fin 2 → Nat) = fun _ => 0 := funext fun a => by fin_cases a <;> rfl

/-- Away from the first tile of a row block the body leaves the block's running contents plus the tile's row sums:
    its one covering store's value, whose loads read the whole buffers. -/
theorem out_B (c : Dev nD) (i : grid1.Coords) (arg2 : Memref sig .tc .vmem S512x2048 .bf16) (harg2 : arg2.IsWhole) (arg3 : Memref sig .tc .vmem S512x4096 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond1_0 i) (x0 : Vec F S512x2048 .bf16) (x1 : Vec F S512x4096 .bf16) (x2 : Vec F S256x2048 .bf16) (x3 : Vec F S256x4096 .bf16) (x4 : Vec F S512x1 .f32) (x5 : Vec F S512x1 .f32) (x6 : Vec F S512x1 .f32) (x7 : Vec F S512x1 .f32) (xo8 : Vec F S512x1 .f32) :
    out1_B_8 c i arg2 harg2 arg3 harg3 arg4 harg4 arg5 harg5 arg6 harg6 arg7 harg7 arg8 harg8 arg9 harg9 arg10 harg10 hc0 x0 x1 x2 x3 x4 x5 x6 x7 xo8 = k1_pay1 (k1_pay3 x0 x2 x4 x5) (k1_pay4 x1 x3 x6 x7) (k1_pay5 x0 x2 x4 x5) (k1_pay6 x1 x3 x6 x7) (k1_pay7 x1 x3 x6 x7) (k1_pay8 x0 x2 x4 x5) xo8 := by
  unfold out1_B_8
  rw [View.read_writes_eq_canon _ _ _ (cover1_B_8 c i arg2 harg2 arg3 harg3 arg4 harg4 arg5 harg5 arg6 harg6 arg7 harg7 arg8 harg8 arg9 harg9 arg10 harg10 hc0 x0 x1 x2 x3 x4 x5 x6 x7 xo8)]
  unfold kernelRun1_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S512x2048) hz, View.ld_unit_zero (S := S512x4096) hz, View.ld_unit_zero (S := S256x2048) hz, View.ld_unit_zero (S := S256x4096) hz, View.ld_unit_zero (S := S512x1) hz]

/-- At the first tile of a row block the body stores the zero block, reads it back, and leaves it plus the tile's
    row sums. -/
theorem out_A (c : Dev nD) (i : grid1.Coords) (arg2 : Memref sig .tc .vmem S512x2048 .bf16) (harg2 : arg2.IsWhole) (arg3 : Memref sig .tc .vmem S512x4096 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond1_0 i) (x0 : Vec F S512x2048 .bf16) (x1 : Vec F S512x4096 .bf16) (x2 : Vec F S256x2048 .bf16) (x3 : Vec F S256x4096 .bf16) (x4 : Vec F S512x1 .f32) (x5 : Vec F S512x1 .f32) (x6 : Vec F S512x1 .f32) (x7 : Vec F S512x1 .f32) :
    out1_A_8 c i arg2 harg2 arg3 harg3 arg4 harg4 arg5 harg5 arg6 harg6 arg7 harg7 arg8 harg8 arg9 harg9 arg10 harg10 hc0 x0 x1 x2 x3 x4 x5 x6 x7 = k1_pay1 (k1_pay3 x0 x2 x4 x5) (k1_pay4 x1 x3 x6 x7) (k1_pay5 x0 x2 x4 x5) (k1_pay6 x1 x3 x6 x7) (k1_pay7 x1 x3 x6 x7) (k1_pay8 x0 x2 x4 x5) k1_pay2 := by
  unfold out1_A_8
  rw [View.read_writes_eq_canon _ _ _ (cover1_A_8 c i arg2 harg2 arg3 harg3 arg4 harg4 arg5 harg5 arg6 harg6 arg7 harg7 arg8 harg8 arg9 harg9 arg10 harg10 hc0 x0 x1 x2 x3 x4 x5 x6 x7)]
  unfold kernelRun1_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x2048) hz, View.ld_unit_zero (S := S512x4096) hz, View.ld_unit_zero (S := S256x2048) hz, View.ld_unit_zero (S := S256x4096) hz, View.ld_unit_zero (S := S512x1) hz]

end Pieces

/-! ## The same at the extended reals, entry by entry -/

section IdealRead

/-- Entry (r, v) of a row block times the transpose of a tile of weights, contracted over the 2048 features. -/
theorem matmul0_apply (x : FVec Ideal S512x2048 .bf16) (w : FVec Ideal S256x2048 .bf16) (r : Fin 512) (v : Fin 256) :
    matmul (F := Ideal) dot_S512x2048_S256x2048_S512x256_1_1_0_0_n_n none x w (constant S512x256 .f32 0x00000000#32) (ix2 r v)
      = logitAt (B := 512) (H := 2048) (Vn := 256) x w r v := by
  refine (Ideal.matmul_constant_zero_apply dot_S512x2048_S256x2048_S512x256_1_1_0_0_n_n none x w (ix2 r v)).trans ?_
  unfold logitAt
  rw [← Equiv.sum_comp (contrEquiv1 dot_S512x2048_S256x2048_S512x256_1_1_0_0_n_n 2048 rfl rfl).symm]
  refine Finset.sum_congr rfl fun k _ => ?_
  have hl : dot_S512x2048_S256x2048_S512x256_1_1_0_0_n_n.lhsIdx (ix2 r v) ((contrEquiv1 dot_S512x2048_S256x2048_S512x256_1_1_0_0_n_n 2048 rfl rfl).symm k) = ix2 r k := by
    funext a; apply Fin.ext
    match a with
    | ⟨0, _⟩ => simp [DotDims.lhsIdx, dot_S512x2048_S256x2048_S512x256_1_1_0_0_n_n]; rfl
    | ⟨1, _⟩ => exact (DotDims.lhsIdx_val_of_single dot_S512x2048_S256x2048_S512x256_1_1_0_0_n_n (cl := (1 : Fin 2)) rfl (ix2 r v) _).trans (contrEquiv1_symm_val dot_S512x2048_S256x2048_S512x256_1_1_0_0_n_n 2048 rfl rfl k)
  have hr : dot_S512x2048_S256x2048_S512x256_1_1_0_0_n_n.rhsIdx (ix2 r v) ((contrEquiv1 dot_S512x2048_S256x2048_S512x256_1_1_0_0_n_n 2048 rfl rfl).symm k) = ix2 v k := by
    funext a; apply Fin.ext
    match a with
    | ⟨0, _⟩ => simp [DotDims.rhsIdx, dot_S512x2048_S256x2048_S512x256_1_1_0_0_n_n]; rfl
    | ⟨1, _⟩ => exact (DotDims.rhsIdx_val_of_single dot_S512x2048_S256x2048_S512x256_1_1_0_0_n_n (cr := (1 : Fin 2)) rfl (ix2 r v) _).trans (contrEquiv1_symm_val dot_S512x2048_S256x2048_S512x256_1_1_0_0_n_n 2048 rfl rfl k)
  rw [hl, hr]

/-- Entry (r, v) of a row block times the transpose of a tile of weights, contracted over the 4096 features. -/
theorem matmul1_apply (x : FVec Ideal S512x4096 .bf16) (w : FVec Ideal S256x4096 .bf16) (r : Fin 512) (v : Fin 256) :
    matmul (F := Ideal) dot_S512x4096_S256x4096_S512x256_1_1_0_0_n_n none x w (constant S512x256 .f32 0x00000000#32) (ix2 r v)
      = logitAt (B := 512) (H := 4096) (Vn := 256) x w r v := by
  refine (Ideal.matmul_constant_zero_apply dot_S512x4096_S256x4096_S512x256_1_1_0_0_n_n none x w (ix2 r v)).trans ?_
  unfold logitAt
  rw [← Equiv.sum_comp (contrEquiv1 dot_S512x4096_S256x4096_S512x256_1_1_0_0_n_n 4096 rfl rfl).symm]
  refine Finset.sum_congr rfl fun k _ => ?_
  have hl : dot_S512x4096_S256x4096_S512x256_1_1_0_0_n_n.lhsIdx (ix2 r v) ((contrEquiv1 dot_S512x4096_S256x4096_S512x256_1_1_0_0_n_n 4096 rfl rfl).symm k) = ix2 r k := by
    funext a; apply Fin.ext
    match a with
    | ⟨0, _⟩ => simp [DotDims.lhsIdx, dot_S512x4096_S256x4096_S512x256_1_1_0_0_n_n]; rfl
    | ⟨1, _⟩ => exact (DotDims.lhsIdx_val_of_single dot_S512x4096_S256x4096_S512x256_1_1_0_0_n_n (cl := (1 : Fin 2)) rfl (ix2 r v) _).trans (contrEquiv1_symm_val dot_S512x4096_S256x4096_S512x256_1_1_0_0_n_n 4096 rfl rfl k)
  have hr : dot_S512x4096_S256x4096_S512x256_1_1_0_0_n_n.rhsIdx (ix2 r v) ((contrEquiv1 dot_S512x4096_S256x4096_S512x256_1_1_0_0_n_n 4096 rfl rfl).symm k) = ix2 v k := by
    funext a; apply Fin.ext
    match a with
    | ⟨0, _⟩ => simp [DotDims.rhsIdx, dot_S512x4096_S256x4096_S512x256_1_1_0_0_n_n]; rfl
    | ⟨1, _⟩ => exact (DotDims.rhsIdx_val_of_single dot_S512x4096_S256x4096_S512x256_1_1_0_0_n_n (cr := (1 : Fin 2)) rfl (ix2 r v) _).trans (contrEquiv1_symm_val dot_S512x4096_S256x4096_S512x256_1_1_0_0_n_n 4096 rfl rfl k)
  rw [hl, hr]

/-- A log-probability entry of the tile: the logit less the row's log-normaliser (shift plus log of the shifted sum). -/
theorem pay3_apply (x : Vec Ideal S512x2048 .bf16) (w : Vec Ideal S256x2048 .bf16) (mx lx : Vec Ideal S512x1 .f32) (r : Fin 512) (v : Fin 256) :
    k1_pay3 (F := Ideal) x w mx lx (ix2 r v)
      = logitAt (B := 512) (H := 2048) (Vn := 256) x w r v - (mx (ix2 r (0 : Fin 1)) + Ideal.log (lx (ix2 r (0 : Fin 1)))) := by
  unfold k1_pay3
  refine (subf_apply _ _ _).trans ?_
  refine congrArg₂ (fun p q : EReal => p - q) ?_ ?_
  · rw [shapeCast_self, shapeCast_self]
    exact matmul0_apply x w r v
  · refine (Cert.Gcn.Layout.broadcastTo_a1_ab_apply _ broadcasts_S512x1_S512x256 r v).trans ?_
    rw [shapeCast_self, shapeCast_self]
    rfl

/-- A log-probability entry of the tile: the logit less the row's log-normaliser (shift plus log of the shifted sum). -/
theorem pay4_apply (x : Vec Ideal S512x4096 .bf16) (w : Vec Ideal S256x4096 .bf16) (mx lx : Vec Ideal S512x1 .f32) (r : Fin 512) (v : Fin 256) :
    k1_pay4 (F := Ideal) x w mx lx (ix2 r v)
      = logitAt (B := 512) (H := 4096) (Vn := 256) x w r v - (mx (ix2 r (0 : Fin 1)) + Ideal.log (lx (ix2 r (0 : Fin 1)))) := by
  unfold k1_pay4
  refine (subf_apply _ _ _).trans ?_
  refine congrArg₂ (fun p q : EReal => p - q) ?_ ?_
  · rw [shapeCast_self, shapeCast_self]
    exact matmul1_apply x w r v
  · refine (Cert.Gcn.Layout.broadcastTo_a1_ab_apply _ broadcasts_S512x1_S512x256 r v).trans ?_
    rw [shapeCast_self, shapeCast_self]
    rfl

/-- One tile's row sum for row r of the row block: the 256 vocabulary entries' shares of the divergence, from the
    student's and the teacher's log-probabilities. -/
def tileSum (x0 : Vec Ideal S512x2048 .bf16) (x1 : Vec Ideal S512x4096 .bf16) (x2 : Vec Ideal S256x2048 .bf16) (x3 : Vec Ideal S256x4096 .bf16) (x4 : Vec Ideal S512x1 .f32) (x5 : Vec Ideal S512x1 .f32) (x6 : Vec Ideal S512x1 .f32) (x7 : Vec Ideal S512x1 .f32) (r : Fin 512) : EReal :=
  ∑ v : Fin 256, contrib
    (logitAt (B := 512) (H := 2048) (Vn := 256) x0 x2 r v - (x4 (ix2 r (0 : Fin 1)) + Ideal.log (x5 (ix2 r (0 : Fin 1)))))
    (logitAt (B := 512) (H := 4096) (Vn := 256) x1 x3 r v - (x6 (ix2 r (0 : Fin 1)) + Ideal.log (x7 (ix2 r (0 : Fin 1)))))

/-- The reduced index with the tile coordinate put back is the entry (r, v). -/
theorem lift_eq (r : Fin 512) (v : Fin 256) : reduces_S512x256_S512.lift (ix1 r) v = ix2 r v := by
  funext a
  match a with
  | ⟨0, _⟩ => rfl
  | ⟨1, _⟩ => rfl

/-- The body's stored value at (r, 0): what the block held there plus the tile's row sum. -/
theorem pay1_apply (x0 : Vec Ideal S512x2048 .bf16) (x1 : Vec Ideal S512x4096 .bf16) (x2 : Vec Ideal S256x2048 .bf16) (x3 : Vec Ideal S256x4096 .bf16) (x4 : Vec Ideal S512x1 .f32) (x5 : Vec Ideal S512x1 .f32) (x6 : Vec Ideal S512x1 .f32) (x7 : Vec Ideal S512x1 .f32) (prev : Vec Ideal S512x1 .f32) (r : Fin 512) :
    k1_pay1 (k1_pay3 x0 x2 x4 x5) (k1_pay4 x1 x3 x6 x7) (k1_pay5 x0 x2 x4 x5) (k1_pay6 x1 x3 x6 x7) (k1_pay7 x1 x3 x6 x7) (k1_pay8 x0 x2 x4 x5) prev (ix2 r (0 : Fin 1)) = prev (ix2 r (0 : Fin 1)) + tileSum x0 x1 x2 x3 x4 x5 x6 x7 r := by
  unfold k1_pay1
  refine (addf_apply _ _ _).trans ?_
  refine congrArg₂ (fun p q : EReal => p + q) (congrFun (shapeCast_self prev shapeCasts_S512x1_S512x1) _) ?_
  refine (Cert.Gcn.Layout.shapeCast_a_a1_apply _ shapeCasts_S512_S512x1 r (0 : Fin 1)).trans ?_
  refine (Ideal.multiReduction_add_single _ (0x00000000#32 : BitVec 32) reduces_S512x256_S512 (.inl rfl) rfl (ix1 r)).trans ?_
  unfold tileSum
  show ∑ v : Fin 256, _ = _
  refine Finset.sum_congr rfl fun v _ => ?_
  rw [lift_eq r v]
  refine Eq.trans ?_ (congrArg₂ contrib (pay3_apply x0 x2 x4 x5 r v) (pay4_apply x1 x3 x6 x7 r v))
  rfl
end IdealRead

/-! ## The blocks a point loads, as entries of the arrays -/

section Blocks
variable (V : (c : Dev nD) → (b : Ref sig .tc) → Buf (Elt Ideal) ((c : Thread nD τ).loc b))

theorem idx1_0 : ∀ t : Fin cfg1.N, win1_0.index t (0 : Fin 2) = t.val / 125 ∧ win1_0.index t (1 : Fin 2) = 0 :=
  (by decide +kernel : ∀ t : Fin grid1.N, win1_0.index t (0 : Fin 2) = t.val / 125 ∧ win1_0.index t (1 : Fin 2) = 0)
theorem idx1_1 : ∀ t : Fin cfg1.N, win1_1.index t (0 : Fin 2) = t.val / 125 ∧ win1_1.index t (1 : Fin 2) = 0 :=
  (by decide +kernel : ∀ t : Fin grid1.N, win1_1.index t (0 : Fin 2) = t.val / 125 ∧ win1_1.index t (1 : Fin 2) = 0)
theorem idx1_2 : ∀ t : Fin cfg1.N, win1_2.index t (0 : Fin 2) = t.val % 125 ∧ win1_2.index t (1 : Fin 2) = 0 :=
  (by decide +kernel : ∀ t : Fin grid1.N, win1_2.index t (0 : Fin 2) = t.val % 125 ∧ win1_2.index t (1 : Fin 2) = 0)
theorem idx1_3 : ∀ t : Fin cfg1.N, win1_3.index t (0 : Fin 2) = t.val % 125 ∧ win1_3.index t (1 : Fin 2) = 0 :=
  (by decide +kernel : ∀ t : Fin grid1.N, win1_3.index t (0 : Fin 2) = t.val % 125 ∧ win1_3.index t (1 : Fin 2) = 0)
theorem idx1_4 : ∀ t : Fin cfg1.N, win1_4.index t (0 : Fin 2) = t.val / 125 ∧ win1_4.index t (1 : Fin 2) = 0 :=
  (by decide +kernel : ∀ t : Fin grid1.N, win1_4.index t (0 : Fin 2) = t.val / 125 ∧ win1_4.index t (1 : Fin 2) = 0)
theorem idx1_5 : ∀ t : Fin cfg1.N, win1_5.index t (0 : Fin 2) = t.val / 125 ∧ win1_5.index t (1 : Fin 2) = 0 :=
  (by decide +kernel : ∀ t : Fin grid1.N, win1_5.index t (0 : Fin 2) = t.val / 125 ∧ win1_5.index t (1 : Fin 2) = 0)
theorem idx1_6 : ∀ t : Fin cfg1.N, win1_6.index t (0 : Fin 2) = t.val / 125 ∧ win1_6.index t (1 : Fin 2) = 0 :=
  (by decide +kernel : ∀ t : Fin grid1.N, win1_6.index t (0 : Fin 2) = t.val / 125 ∧ win1_6.index t (1 : Fin 2) = 0)
theorem idx1_7 : ∀ t : Fin cfg1.N, win1_7.index t (0 : Fin 2) = t.val / 125 ∧ win1_7.index t (1 : Fin 2) = 0 :=
  (by decide +kernel : ∀ t : Fin grid1.N, win1_7.index t (0 : Fin 2) = t.val / 125 ∧ win1_7.index t (1 : Fin 2) = 0)
theorem idx1_8 : ∀ t : Fin cfg1.N, win1_8.index t (0 : Fin 2) = t.val / 125 ∧ win1_8.index t (1 : Fin 2) = 0 :=
  (by decide +kernel : ∀ t : Fin grid1.N, win1_8.index t (0 : Fin 2) = t.val / 125 ∧ win1_8.index t (1 : Fin 2) = 0)

/-- Row 512·(n / 125) + r of the 2048 rows: the array's row that row r of point n's row block is. -/
def rowOf (n : ℕ) (hn : n < 500) (r : Fin 512) : Fin 2048 := ⟨512 * (n / 125) + r.val, by have := r.isLt; omega⟩
/-- Vocabulary entry 256·(n % 125) + v: the entry that row v of point n's tile of weights is. -/
def vocOf (n : ℕ) (v : Fin 256) : Fin 32000 :=
  ⟨256 * (n % 125) + v.val, by have := v.isLt; have := Nat.mod_lt n (show 0 < 125 by decide); omega⟩

theorem blk0 (c : Dev nD) (t : Fin cfg1.N) (ht : t.val < 500) (r : Fin 512) (k : Fin 2048) :
    (iblk1 V c 0 t : Vec Ideal S512x2048 .bf16) (ix2 r k) = V c main_v0 (ix2 (rowOf t.val ht r) k) := by
  unfold iblk1
  rw [View.read_apply]
  show V c main_v0 _ = V c main_v0 _
  congr 1
  funext a; apply Fin.ext
  match a with
  | ⟨0, _⟩ => show win1_0.index t (0 : Fin 2) * 512 + 1 * r.val = 512 * (t.val / 125) + r.val; rw [(idx1_0 t).1]; omega
  | ⟨1, _⟩ => show win1_0.index t (1 : Fin 2) * 2048 + 1 * k.val = k.val; rw [(idx1_0 t).2]; omega

theorem blk1 (c : Dev nD) (t : Fin cfg1.N) (ht : t.val < 500) (r : Fin 512) (k : Fin 4096) :
    (iblk1 V c 1 t : Vec Ideal S512x4096 .bf16) (ix2 r k) = V c main_v2 (ix2 (rowOf t.val ht r) k) := by
  unfold iblk1
  rw [View.read_apply]
  show V c main_v2 _ = V c main_v2 _
  congr 1
  funext a; apply Fin.ext
  match a with
  | ⟨0, _⟩ => show win1_1.index t (0 : Fin 2) * 512 + 1 * r.val = 512 * (t.val / 125) + r.val; rw [(idx1_1 t).1]; omega
  | ⟨1, _⟩ => show win1_1.index t (1 : Fin 2) * 4096 + 1 * k.val = k.val; rw [(idx1_1 t).2]; omega

theorem blk2 (c : Dev nD) (t : Fin cfg1.N) (v : Fin 256) (k : Fin 2048) :
    (iblk1 V c 2 t : Vec Ideal S256x2048 .bf16) (ix2 v k) = V c main_v1 (ix2 (vocOf t.val v) k) := by
  unfold iblk1
  rw [View.read_apply]
  show V c main_v1 _ = V c main_v1 _
  congr 1
  funext a; apply Fin.ext
  match a with
  | ⟨0, _⟩ => show win1_2.index t (0 : Fin 2) * 256 + 1 * v.val = 256 * (t.val % 125) + v.val; rw [(idx1_2 t).1]; omega
  | ⟨1, _⟩ => show win1_2.index t (1 : Fin 2) * 2048 + 1 * k.val = k.val; rw [(idx1_2 t).2]; omega

theorem blk3 (c : Dev nD) (t : Fin cfg1.N) (v : Fin 256) (k : Fin 4096) :
    (iblk1 V c 3 t : Vec Ideal S256x4096 .bf16) (ix2 v k) = V c main_v3 (ix2 (vocOf t.val v) k) := by
  unfold iblk1
  rw [View.read_apply]
  show V c main_v3 _ = V c main_v3 _
  congr 1
  funext a; apply Fin.ext
  match a with
  | ⟨0, _⟩ => show win1_3.index t (0 : Fin 2) * 256 + 1 * v.val = 256 * (t.val % 125) + v.val; rw [(idx1_3 t).1]; omega
  | ⟨1, _⟩ => show win1_3.index t (1 : Fin 2) * 4096 + 1 * k.val = k.val; rw [(idx1_3 t).2]; omega

theorem blk4 (c : Dev nD) (t : Fin cfg1.N) (ht : t.val < 500) (r : Fin 512) (k : Fin 1) :
    (iblk1 V c 4 t : Vec Ideal S512x1 .f32) (ix2 r k) = V c main_v4_0 (ix2 (rowOf t.val ht r) k) := by
  unfold iblk1
  rw [View.read_apply]
  show V c main_v4_0 _ = V c main_v4_0 _
  congr 1
  funext a; apply Fin.ext
  match a with
  | ⟨0, _⟩ => show win1_4.index t (0 : Fin 2) * 512 + 1 * r.val = 512 * (t.val / 125) + r.val; rw [(idx1_4 t).1]; omega
  | ⟨1, _⟩ => show win1_4.index t (1 : Fin 2) * 1 + 1 * k.val = k.val; rw [(idx1_4 t).2]; omega

theorem blk5 (c : Dev nD) (t : Fin cfg1.N) (ht : t.val < 500) (r : Fin 512) (k : Fin 1) :
    (iblk1 V c 5 t : Vec Ideal S512x1 .f32) (ix2 r k) = V c main_v4_1 (ix2 (rowOf t.val ht r) k) := by
  unfold iblk1
  rw [View.read_apply]
  show V c main_v4_1 _ = V c main_v4_1 _
  congr 1
  funext a; apply Fin.ext
  match a with
  | ⟨0, _⟩ => show win1_5.index t (0 : Fin 2) * 512 + 1 * r.val = 512 * (t.val / 125) + r.val; rw [(idx1_5 t).1]; omega
  | ⟨1, _⟩ => show win1_5.index t (1 : Fin 2) * 1 + 1 * k.val = k.val; rw [(idx1_5 t).2]; omega

theorem blk6 (c : Dev nD) (t : Fin cfg1.N) (ht : t.val < 500) (r : Fin 512) (k : Fin 1) :
    (iblk1 V c 6 t : Vec Ideal S512x1 .f32) (ix2 r k) = V c main_v4_2 (ix2 (rowOf t.val ht r) k) := by
  unfold iblk1
  rw [View.read_apply]
  show V c main_v4_2 _ = V c main_v4_2 _
  congr 1
  funext a; apply Fin.ext
  match a with
  | ⟨0, _⟩ => show win1_6.index t (0 : Fin 2) * 512 + 1 * r.val = 512 * (t.val / 125) + r.val; rw [(idx1_6 t).1]; omega
  | ⟨1, _⟩ => show win1_6.index t (1 : Fin 2) * 1 + 1 * k.val = k.val; rw [(idx1_6 t).2]; omega

theorem blk7 (c : Dev nD) (t : Fin cfg1.N) (ht : t.val < 500) (r : Fin 512) (k : Fin 1) :
    (iblk1 V c 7 t : Vec Ideal S512x1 .f32) (ix2 r k) = V c main_v4_3 (ix2 (rowOf t.val ht r) k) := by
  unfold iblk1
  rw [View.read_apply]
  show V c main_v4_3 _ = V c main_v4_3 _
  congr 1
  funext a; apply Fin.ext
  match a with
  | ⟨0, _⟩ => show win1_7.index t (0 : Fin 2) * 512 + 1 * r.val = 512 * (t.val / 125) + r.val; rw [(idx1_7 t).1]; omega
  | ⟨1, _⟩ => show win1_7.index t (1 : Fin 2) * 1 + 1 * k.val = k.val; rw [(idx1_7 t).2]; omega

/-- The share of vocabulary entry v in row R's loss, from the two pairs of arrays (inputs, weights) and the four
    columns (the student's row shift and shifted sum, then the teacher's). -/
def shareOf (s : (⟨2, ![2048, 2048]⟩ : Shape).Idx → EReal) (sw : (⟨2, ![32000, 2048]⟩ : Shape).Idx → EReal)
    (t : (⟨2, ![2048, 4096]⟩ : Shape).Idx → EReal) (tw : (⟨2, ![32000, 4096]⟩ : Shape).Idx → EReal)
    (ms ls mt lt : (⟨2, ![2048, 1]⟩ : Shape).Idx → EReal) (R : Fin 2048) (v : Fin 32000) : EReal :=
  contrib (logitAt s sw R v - (ms (ix2 R (0 : Fin 1)) + Ideal.log (ls (ix2 R (0 : Fin 1)))))
    (logitAt t tw R v - (mt (ix2 R (0 : Fin 1)) + Ideal.log (lt (ix2 R (0 : Fin 1)))))

/-- The same from the arrays as the region finds them. -/
def share (c : Dev nD) (R : Fin 2048) (v : Fin 32000) : EReal :=
  shareOf (V c main_v0) (V c main_v1) (V c main_v2) (V c main_v3) (V c main_v4_0) (V c main_v4_1) (V c main_v4_2) (V c main_v4_3) R v

/-- One point's tile row sum is the sum of the shares of the tile's 256 vocabulary entries in the row's loss. -/
theorem tile_eq (c : Dev nD) (t : Fin cfg1.N) (ht : t.val < 500) (r : Fin 512) :
    tileSum (iblk1 V c 0 t) (iblk1 V c 1 t) (iblk1 V c 2 t) (iblk1 V c 3 t) (iblk1 V c 4 t) (iblk1 V c 5 t) (iblk1 V c 6 t) (iblk1 V c 7 t) r = ∑ v : Fin 256, share V c (rowOf t.val ht r) (vocOf t.val v) := by
  unfold tileSum share shareOf logitAt
  refine Finset.sum_congr rfl fun v _ => ?_
  refine congrArg₂ contrib ?_ ?_
  · refine congrArg₂ (fun p q : EReal => p - q) ?_ ?_
    · exact Finset.sum_congr rfl fun k _ => congrArg₂ (fun p q : EReal => p * q) (blk0 V c t ht r k) (blk2 V c t v k)
    · exact congrArg₂ (fun p q : EReal => p + q) (blk4 V c t ht r (0 : Fin 1)) (congrArg Ideal.log (blk5 V c t ht r (0 : Fin 1)))
  · refine congrArg₂ (fun p q : EReal => p - q) ?_ ?_
    · exact Finset.sum_congr rfl fun k _ => congrArg₂ (fun p q : EReal => p * q) (blk1 V c t ht r k) (blk3 V c t v k)
    · exact congrArg₂ (fun p q : EReal => p + q) (blk6 V c t ht r (0 : Fin 1)) (congrArg Ideal.log (blk7 V c t ht r (0 : Fin 1)))

end Blocks

/-! ## The running sum over the tiles of a row block -/

section Accumulate
variable (V : (c : Dev nD) → (b : Ref sig .tc) → Buf (Elt Ideal) ((c : Thread nD τ).loc b))

/-- The sum over the first j + 1 blocks of 256 of a row of 125 · 256 terms. -/
def part (f : Fin (125 * 256) → EReal) (j : ℕ) : EReal :=
  ∑ t ∈ Finset.univ.filter (fun t : Fin 125 => t.val ≤ j), ∑ i : Fin 256, f (flat t i)

theorem part_first (f : Fin (125 * 256) → EReal) (j : ℕ) (hj : j = 0) (t0 : Fin 125) (h0 : t0.val = j) :
    part f j = ∑ i : Fin 256, f (flat t0 i) := by
  subst hj
  have hfilter : Finset.univ.filter (fun t : Fin 125 => t.val ≤ 0) = {t0} := by
    ext t
    simp only [Finset.mem_filter, Finset.mem_univ, true_and, Finset.mem_singleton]
    constructor
    · intro h; apply Fin.ext; omega
    · intro h; rw [h, h0]
  unfold part
  rw [hfilter, Finset.sum_singleton]

theorem part_next (f : Fin (125 * 256) → EReal) (j j' : ℕ) (hj : j' = j + 1) (t1 : Fin 125) (h1 : t1.val = j') :
    part f j' = part f j + ∑ i : Fin 256, f (flat t1 i) := by
  subst hj
  have hfilter : Finset.univ.filter (fun t : Fin 125 => t.val ≤ j + 1)
      = insert t1 (Finset.univ.filter (fun t : Fin 125 => t.val ≤ j)) := by
    ext t
    simp only [Finset.mem_filter, Finset.mem_univ, true_and, Finset.mem_insert]
    constructor
    · intro h
      by_cases ht : t.val ≤ j
      · exact Or.inr ht
      · left; apply Fin.ext; omega
    · rintro (h | h)
      · rw [h, h1]
      · omega
  have hnotin : t1 ∉ Finset.univ.filter (fun t : Fin 125 => t.val ≤ j) := by
    simp only [Finset.mem_filter, Finset.mem_univ, true_and]; omega
  unfold part
  rw [hfilter, Finset.sum_insert hnotin, add_comm]

theorem part_last (f : Fin (125 * 256) → EReal) : part f 124 = ∑ v, f v := by
  have hfilter : Finset.univ.filter (fun t : Fin 125 => t.val ≤ 124) = Finset.univ := by
    apply Finset.filter_true_of_mem; intro t _; have := t.isLt; omega
  unfold part
  rw [hfilter, sum_blocks f]

theorem vocOf_eq (n : ℕ) (v : Fin 256) (h : n % 125 < 125) : vocOf n v = flat (n := 125) (m := 256) ⟨n % 125, h⟩ v := rfl

/-- At the first tile of a row block the output block holds that tile's row sums. -/
theorem outsAt_A (c : Dev nD) (t : Fin cfg1.N) (ht : t.val < 500) (h0 : t.val % 125 = 0) (r : Fin 512) :
    outsAt1 V c t.val t.isLt (ix2 r (0 : Fin 1)) = ∑ v : Fin 256, share V c (rowOf t.val ht r) (vocOf t.val v) := by
  rw [outsAt1_A V c t h0]
  refine (congrFun (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t) (iblk1 V c 6 t) (iblk1 V c 7 t)) (ix2 r (0 : Fin 1))).trans ?_
  refine (pay1_apply (iblk1 V c 0 t) (iblk1 V c 1 t) (iblk1 V c 2 t) (iblk1 V c 3 t) (iblk1 V c 4 t) (iblk1 V c 5 t) (iblk1 V c 6 t) (iblk1 V c 7 t) (k1_pay2 (F := Ideal)) r).trans ?_
  rw [tile_eq V c t ht r]
  show Ideal.ofBits .f32 0x00000000#32 + _ = _
  rw [Ideal.ofBits_zero_f32, zero_add]

/-- At a later tile it holds what the point before left plus the tile's row sums. -/
theorem outsAt_B (c : Dev nD) (t : Fin cfg1.N) (ht : t.val < 500) (h0 : ¬t.val % 125 = 0) (r : Fin 512) :
    outsAt1 V c t.val t.isLt (ix2 r (0 : Fin 1))
      = outsAt1 V c (t.val - 1) (Nat.lt_of_le_of_lt (Nat.sub_le _ _) t.isLt) (ix2 r (0 : Fin 1))
        + ∑ v : Fin 256, share V c (rowOf t.val ht r) (vocOf t.val v) := by
  rw [outsAt1_B V c t h0]
  refine (congrFun (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt))) (ix2 r (0 : Fin 1))).trans ?_
  refine (pay1_apply (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)) r).trans ?_
  rw [tile_eq V c t ht r]

/-- After point n the output block holds, for each of its rows, the shares of the vocabulary entries of tiles
    0 … n % 125: by induction on the point. -/
theorem outsAt_eq (c : Dev nD) (n : ℕ) : ∀ (h : n < cfg1.N) (hn : n < 500) (r : Fin 512),
    outsAt1 V c n h (ix2 r (0 : Fin 1)) = part (share V c (rowOf n hn r)) (n % 125) := by
  induction n with
  | zero =>
    intro h hn r
    refine (outsAt_A V c ⟨0, h⟩ hn rfl r).trans ?_
    exact (part_first (share V c (rowOf 0 hn r)) (0 % 125) rfl ⟨0 % 125, by decide⟩ rfl).symm
  | succ m ih =>
    intro h hn r
    have hmod : (m + 1) % 125 < 125 := Nat.mod_lt _ (by decide)
    by_cases h0 : (m + 1) % 125 = 0
    · refine (outsAt_A V c ⟨m + 1, h⟩ hn h0 r).trans ?_
      exact (part_first (share V c (rowOf (m + 1) hn r)) ((m + 1) % 125) h0 ⟨(m + 1) % 125, hmod⟩ rfl).symm
    · refine (outsAt_B V c ⟨m + 1, h⟩ hn h0 r).trans ?_
      show outsAt1 V c m _ (ix2 r (0 : Fin 1)) + _ = _
      rw [ih (Nat.lt_of_succ_lt h) (by omega) r]
      have hrow : rowOf m (by omega) r = rowOf (m + 1) hn r := by
        apply Fin.ext; show 512 * (m / 125) + r.val = 512 * ((m + 1) / 125) + r.val; omega
      rw [hrow]
      exact (part_next (share V c (rowOf (m + 1) hn r)) (m % 125) ((m + 1) % 125) (by omega) ⟨(m + 1) % 125, hmod⟩ rfl).symm

end Accumulate

/-! ## The array after the run -/

section Final
variable (V : (c : Dev nD) → (b : Ref sig .tc) → Buf (Elt Ideal) ((c : Thread nD τ).loc b))

/-- The array the region leaves: at row R, the sum of the shares of all 32000 vocabulary entries. -/
def result (c : Dev nD) : S2048x1.Idx → EReal := fun idx => ∑ v : Fin 32000, share V c (idx 0) v

/-- An index of the array is in point t's block iff each coordinate is in the block's range on its axis. -/
theorem mem_blk8 (t : Fin cfg1.N) (i : S2048x1.Idx) :
    i ∈ ((cfg1.win 8).blk t).view.set ↔ ∀ a : Fin 2, win1_8.index t a * S512x1.size a ≤ (i a).val ∧ (i a).val < win1_8.index t a * S512x1.size a + S512x1.size a := by
  show i ∈ ((View.whole main_v5).slice (win1_8.rect t)).set ↔ _
  rw [View.set_slice_whole, Rect.mem_set_unit]
  exact Iff.rfl

set_option maxRecDepth 65536 in
/-- What is written back after the last tile of a row block is that block of the result. -/
theorem flushed_eq (c : Dev nD) (t : Fin cfg1.N) (hf : (cfg1.win 8).flush t = true) :
    (dat1 V c).flushed 8 t = ((cfg1.win 8).blk t).view.read (Elt Ideal) (result V c) := by
  have ht : t.val < 500 := lt_of_lt_of_eq t.isLt (show cfg1.N = 500 from N_1)
  have h124 : t.val % 125 = 124 := (flush1_8 t).mp hf
  show (cfg1.win 8).cut (grid1.coords t) ((dat1 V c).after 8 t) = _
  rw [after1_8]
  have key : ∀ (r : Fin 512) (u : Fin 1),
      (cfg1.win 8).cut (grid1.coords t) (outsAt1 V c t.val t.isLt) (ix2 r u)
        = ((cfg1.win 8).blk t).view.read (Elt Ideal) (result V c) (ix2 r u) := by
    intro r u
    obtain rfl : u = 0 := Subsingleton.elim _ _
    rw [View.read_apply]
    show outsAt1 V c t.val t.isLt (ix2 r (0 : Fin 1))
      = ∑ v : Fin 32000, share V c ((((cfg1.win 8).blk t).view.emb (ix2 r (0 : Fin 1))) 0) v
    have hrow : (((cfg1.win 8).blk t).view.emb (ix2 r (0 : Fin 1))) 0 = rowOf t.val ht r := by
      apply Fin.ext
      show win1_8.index t (0 : Fin 2) * 512 + 1 * r.val = 512 * (t.val / 125) + r.val
      rw [(idx1_8 t).1]; omega
    rw [hrow, outsAt_eq V c t.val t.isLt ht r, h124, part_last]
  funext j
  have hj := eq_ix2 (n0 := 512) (n1 := 1) j
  rw [hj]
  exact key (j 0) (j 1)

/-- Every row of the array is in the block written back after the last tile of its row block. -/
theorem cover8 (i : S2048x1.Idx) :
    ∃ t : Fin cfg1.N, (cfg1.win 8).flush t = true ∧ i ∈ ((cfg1.win 8).blk t).view.set := by
  have hi0 : (i 0).val < 2048 := idx2_lt0 i
  have hi1 : (i 1).val < 1 := idx2_lt1 i
  have hlt : 125 * ((i 0).val / 512) + 124 < cfg1.N := lt_of_lt_of_eq (by omega) (show 500 = cfg1.N from N_1.symm)
  obtain ⟨t, htv⟩ : ∃ t : Fin cfg1.N, t.val = 125 * ((i 0).val / 512) + 124 := ⟨⟨_, hlt⟩, rfl⟩
  refine ⟨t, (flush1_8 t).mpr (by omega), ?_⟩
  rw [mem_blk8]
  intro a
  match a with
  | ⟨0, _⟩ =>
    show win1_8.index t (0 : Fin 2) * 512 ≤ (i 0).val ∧ (i 0).val < win1_8.index t (0 : Fin 2) * 512 + 512
    rw [(idx1_8 t).1]; omega
  | ⟨1, _⟩ =>
    show win1_8.index t (1 : Fin 2) * 1 ≤ (i 1).val ∧ (i 1).val < win1_8.index t (1 : Fin 2) * 1 + 1
    rw [(idx1_8 t).2]; omega

/-- So the array ends holding the result. -/
theorem final8 (c : Dev nD) : (dat1 V c).arrAt 8 cfg1.N = result V c :=
  (dat1 V c).arrAt_eq_of_cover 8 (result V c) (flushed_eq V c) (fun i => cover8 i)

/-- Row R of the array after the region: the sum over the vocabulary of the shares of the divergence. -/
theorem loss_final (c : Dev nD) (R : Fin 2048) :
    (dat1 (F := Ideal) V c).arrAt 8 cfg1.N (ix2 R (0 : Fin 1))
      = ∑ v : Fin 32000, shareOf (V c main_v0) (V c main_v1) (V c main_v2) (V c main_v3)
          (V c main_v4_0) (V c main_v4_1) (V c main_v4_2) (V c main_v4_3) R v :=
  (congrFun (final8 V c) (ix2 R (0 : Fin 1))).trans rfl

end Final

end Cert.KernelIdeal.LossValue

end
-- ==== Proof.RefTok.lean ====
/-
  The reference's per-token loss, read at a token R, is the Jensen–Shannon loss of that token's two rows of logits:
  the row of x0 · x1ᵀ (the student's) and the row of x2 · x3ᵀ (the teacher's), each divided by the temperature 1, each
  turned into log-probabilities by subtracting the row maximum and then the logarithm of the sum of the shifted
  exponentials — which, the maximum being a real number, is the row's log-normaliser whatever the maximum is.
-/
import proofs.«159389_j37958920962547_1_alg».proof.Proof.RefReadP
import proofs.«159389_j37958920962547_1_alg».proof.Proof.JsdLaw
import Idealize.ShloMosaic.Lib.ValueIdx
import Idealize.ShloMosaic.PureOps.Ideal.Laws

noncomputable section

open scoped BigOperators

namespace Cert.Jsd.Ref

open Cert.ReferenceIdeal Cert.ReferenceIdeal.Gen Cert.ReferenceIdeal.ReadP Idealize.ShloMosaic Idealize.ShloMosaic.ValueIdx

/-- The f32 pattern 0x3F800000 denotes 1. -/
theorem one_bits : Ideal.ofBits .f32 0x3F800000#32 = (1 : EReal) := by
  simp [Ideal.ofBits, Ideal.ieee]
  rw [← EReal.coe_mul, ← EReal.coe_one]
  congr 1
  norm_num

/-- The f32 pattern 0xFF800000 denotes −∞. -/
theorem neg_inf_bits : Ideal.ofBits .f32 0xFF800000#32 = (⊥ : EReal) := by
  simp [Ideal.ofBits, Ideal.ieee]

/-- Dividing by 1 changes nothing. -/
theorem div_one' (x : EReal) : Ideal.div x 1 = x := by
  have h := Ideal.div_coe (y := 1) one_ne_zero x
  simpa using h

/-- A logit of real rows is a real number. -/
theorem logit_real {B H Vn : ℕ} (x : (⟨2, ![B, H]⟩ : Shape).Idx → EReal) (w : (⟨2, ![Vn, H]⟩ : Shape).Idx → EReal)
    (hx : ∀ i, ∃ r : ℝ, x i = (r : EReal)) (hw : ∀ i, ∃ r : ℝ, w i = (r : EReal)) (R : Fin B) (v : Fin Vn) :
    ∃ r : ℝ, logitAt x w R v = (r : EReal) := by
  choose f hf using hx
  choose g hg using hw
  refine ⟨∑ k : Fin H, f (ix2 R k) * g (ix2 v k), ?_⟩
  unfold logitAt
  rw [coe_sum]
  exact Finset.sum_congr rfl fun k _ => by rw [hf, hg, EReal.coe_mul]

/-- The maximum over a row of a [2048, 32000] array of real numbers, folded from −∞, is a real number. -/
theorem rowmax_real (y : FVec Ideal S2048x32000 .f32) (hy : ∀ i, ∃ r : ℝ, y i = (r : EReal)) (j : S2048.Idx) :
    ∃ M : ℝ, Host.reduce (FloatOps.maximumf (F := Ideal) (φ := .f32)) y (constant (F := Ideal) S_ .f32 0xFF800000#32)
      reducesTo_S2048x32000_S2048_d1 h_S_ j = (M : EReal) := by
  have hR : S2048x32000.Reduces [1] S2048 := by decide
  have e := Host.reduce_eq_fold_single (α := Ideal .f32) FloatOps.maximumf y (constant (F := Ideal) S_ .f32 0xFF800000#32)
    reducesTo_S2048x32000_S2048_d1 hR h_S_ j
  choose σ hσ using fun k => hy (hR.lift j k)
  have hb : (constant (F := Ideal) S_ .f32 0xFF800000#32) (Shape.Idx.first h_S_) = (⊥ : EReal) := neg_inf_bits
  rw [hb] at e
  obtain ⟨M, hM⟩ := fold_max_real (n := 32000) (by decide) (y ∘ hR.lift j) σ hσ
  exact ⟨M, e.trans hM⟩

section student
variable (x0 : (⟨S2048x2048, .f32⟩ : BufTy).Contents (Elt Ideal)) (x1 : (⟨S32000x2048, .f32⟩ : BufTy).Contents (Elt Ideal))

/-- The student's scaled logits are the logits: the temperature is 1. -/
theorem v2_eq (R : Fin 2048) (v : Fin 32000) :
    val_main_v2 (F := Ideal) x0 x1 (ix2 R v) = logitAt x0 x1 R v := by
  rw [val_main_v2_apply, val_main_v0_apply, val_main_v1_apply, val_main_cst_apply]
  show Ideal.div _ (Ideal.ofBits .f32 0x3F800000#32) = _
  rw [one_bits, div_one']
  unfold logitAt
  refine Finset.sum_congr rfl fun k _ => ?_
  congr 2 <;> (funext a; match a with | ⟨0, _⟩ => rfl | ⟨1, _⟩ => rfl)

/-- A shifted logit of the student. -/
theorem call0_v5_eq (R : Fin 2048) (v : Fin 32000) :
    val_main_call0_v5 (F := Ideal) x0 x1 (ix2 R v)
      = logitAt x0 x1 R v - val_main_call0_v2 (F := Ideal) x0 x1 (ix1 R) := by
  have hj : idx_main_call0_v3 (idx_main_call0_v4 (ix2 R v)) = ix1 R := by
    funext a; match a with | ⟨0, _⟩ => rfl
  rw [val_main_call0_v5_apply, val_main_call0_v4_apply, val_main_call0_v3_apply, v2_eq, hj, Ideal.subf_def]

/-- The sum of the shifted exponentials of a row of the student's, when the shift is M. -/
theorem call0_v7_eq (R : Fin 2048) (M : EReal) (hM : val_main_call0_v2 (F := Ideal) x0 x1 (ix1 R) = M) :
    val_main_call0_v7 (F := Ideal) x0 x1 (ix1 R) = ∑ u : Fin 32000, Ideal.exp (logitAt x0 x1 R u - M) := by
  have hsum : (∑ k : Fin 32000, val_main_call0_v6 (F := Ideal) x0 x1 (idx_main_call0_v7 (ix1 R) k))
      = ∑ u : Fin 32000, Ideal.exp (logitAt x0 x1 R u - M) := by
    refine Finset.sum_congr rfl fun k _ => ?_
    have hk : idx_main_call0_v7 (ix1 R) k = ix2 R k := by
      funext a; match a with | ⟨0, _⟩ => rfl | ⟨1, _⟩ => rfl
    rw [hk, val_main_call0_v6_apply, call0_v5_eq, hM, Ideal.hostUnary_exp_def]
  rw [val_main_call0_v7_apply, val_main_call0_cst_1_apply, hsum, Ideal.ofBits_def, Ideal.ofBits_zero_f32, zero_add]

variable (hx0 : ∀ i, ∃ r : ℝ, x0 i = (r : EReal)) (hx1 : ∀ i, ∃ r : ℝ, x1 i = (r : EReal))
include hx0 hx1

/-- Every scaled logit of the student is a real number. -/
theorem v2_real (i : S2048x32000.Idx) : ∃ r : ℝ, val_main_v2 (F := Ideal) x0 x1 i = (r : EReal) := by
  obtain ⟨R, v, rfl⟩ : ∃ (R : Fin 2048) (v : Fin 32000), i = ix2 R v := ⟨i 0, i 1, eq_ix2 (n0 := 2048) (n1 := 32000) i⟩
  rw [v2_eq]
  exact logit_real x0 x1 hx0 hx1 _ _

/-- The shift the student's rows are moved by (the row maximum, joined with −∞) is a real number. -/
theorem call0_shift_real (j : S2048.Idx) : ∃ M : ℝ, val_main_call0_v2 (F := Ideal) x0 x1 j = (M : EReal) := by
  obtain ⟨M, hM⟩ := rowmax_real (val_main_v2 (F := Ideal) x0 x1) (v2_real x0 x1 hx0 hx1) j
  refine ⟨M, ?_⟩
  rw [val_main_call0_v2_apply, val_main_call0_v1_apply, val_main_call0_cst_0_apply]
  show max (Ideal.ofBits .f32 0xFF800000#32) (val_main_call0_v0 (F := Ideal) x0 x1 j) = _
  rw [neg_inf_bits, max_eq_right bot_le]
  exact hM

/-- The student's log-probabilities: the logit minus the row's log-normaliser. -/
theorem v6_eq (R : Fin 2048) (v : Fin 32000) :
    val_main_v6 (F := Ideal) x0 x1 (ix2 R v)
      = logitAt x0 x1 R v - lse (fun u => logitAt x0 x1 R u) := by
  obtain ⟨M, hM⟩ := call0_shift_real x0 x1 hx0 hx1 (ix1 R)
  choose σ hσ using fun u => logit_real x0 x1 hx0 hx1 R u
  have hj : idx_main_call0_v8 (idx_main_call0_v10 (ix2 R v)) = ix1 R := by
    funext a; match a with | ⟨0, _⟩ => rfl
  rw [val_main_v6_apply, val_main_call0_v10_apply, val_main_call0_v9_apply, val_main_call0_v8_apply, hj,
    call0_v7_eq x0 x1 R M hM, call0_v5_eq, hM, Ideal.subf_def, Ideal.hostUnary_log_def]
  exact sub_shift_sub_log (n := 32000) (by decide) (fun u => logitAt x0 x1 R u) σ hσ M v

end student

section teacher
variable (x2 : (⟨S2048x4096, .f32⟩ : BufTy).Contents (Elt Ideal)) (x3 : (⟨S32000x4096, .f32⟩ : BufTy).Contents (Elt Ideal))

/-- The teacher's scaled logits are the logits: the temperature is 1. -/
theorem v5_eq (R : Fin 2048) (v : Fin 32000) :
    val_main_v5 (F := Ideal) x2 x3 (ix2 R v) = logitAt x2 x3 R v := by
  rw [val_main_v5_apply, val_main_v3_apply, val_main_v4_apply, val_main_cst_0_apply]
  show Ideal.div _ (Ideal.ofBits .f32 0x3F800000#32) = _
  rw [one_bits, div_one']
  unfold logitAt
  refine Finset.sum_congr rfl fun k _ => ?_
  congr 2 <;> (funext a; match a with | ⟨0, _⟩ => rfl | ⟨1, _⟩ => rfl)

/-- A shifted logit of the teacher. -/
theorem call1_v5_eq (R : Fin 2048) (v : Fin 32000) :
    val_main_call1_v5 (F := Ideal) x2 x3 (ix2 R v)
      = logitAt x2 x3 R v - val_main_call1_v2 (F := Ideal) x2 x3 (ix1 R) := by
  have hj : idx_main_call1_v3 (idx_main_call1_v4 (ix2 R v)) = ix1 R := by
    funext a; match a with | ⟨0, _⟩ => rfl
  rw [val_main_call1_v5_apply, val_main_call1_v4_apply, val_main_call1_v3_apply, v5_eq, hj, Ideal.subf_def]

/-- The sum of the shifted exponentials of a row of the teacher's, when the shift is M. -/
theorem call1_v7_eq (R : Fin 2048) (M : EReal) (hM : val_main_call1_v2 (F := Ideal) x2 x3 (ix1 R) = M) :
    val_main_call1_v7 (F := Ideal) x2 x3 (ix1 R) = ∑ u : Fin 32000, Ideal.exp (logitAt x2 x3 R u - M) := by
  have hsum : (∑ k : Fin 32000, val_main_call1_v6 (F := Ideal) x2 x3 (idx_main_call1_v7 (ix1 R) k))
      = ∑ u : Fin 32000, Ideal.exp (logitAt x2 x3 R u - M) := by
    refine Finset.sum_congr rfl fun k _ => ?_
    have hk : idx_main_call1_v7 (ix1 R) k = ix2 R k := by
      funext a; match a with | ⟨0, _⟩ => rfl | ⟨1, _⟩ => rfl
    rw [hk, val_main_call1_v6_apply, call1_v5_eq, hM, Ideal.hostUnary_exp_def]
  rw [val_main_call1_v7_apply, val_main_call1_cst_1_apply, hsum, Ideal.ofBits_def, Ideal.ofBits_zero_f32, zero_add]

variable (hx2 : ∀ i, ∃ r : ℝ, x2 i = (r : EReal)) (hx3 : ∀ i, ∃ r : ℝ, x3 i = (r : EReal))
include hx2 hx3

/-- Every scaled logit of the teacher is a real number. -/
theorem v5_real (i : S2048x32000.Idx) : ∃ r : ℝ, val_main_v5 (F := Ideal) x2 x3 i = (r : EReal) := by
  obtain ⟨R, v, rfl⟩ : ∃ (R : Fin 2048) (v : Fin 32000), i = ix2 R v := ⟨i 0, i 1, eq_ix2 (n0 := 2048) (n1 := 32000) i⟩
  rw [v5_eq]
  exact logit_real x2 x3 hx2 hx3 _ _

/-- The shift the teacher's rows are moved by (the row maximum, joined with −∞) is a real number. -/
theorem call1_shift_real (j : S2048.Idx) : ∃ M : ℝ, val_main_call1_v2 (F := Ideal) x2 x3 j = (M : EReal) := by
  obtain ⟨M, hM⟩ := rowmax_real (val_main_v5 (F := Ideal) x2 x3) (v5_real x2 x3 hx2 hx3) j
  refine ⟨M, ?_⟩
  rw [val_main_call1_v2_apply, val_main_call1_v1_apply, val_main_call1_cst_0_apply]
  show max (Ideal.ofBits .f32 0xFF800000#32) (val_main_call1_v0 (F := Ideal) x2 x3 j) = _
  rw [neg_inf_bits, max_eq_right bot_le]
  exact hM

/-- The teacher's log-probabilities: the logit minus the row's log-normaliser. -/
theorem v7_eq (R : Fin 2048) (v : Fin 32000) :
    val_main_v7 (F := Ideal) x2 x3 (ix2 R v)
      = logitAt x2 x3 R v - lse (fun u => logitAt x2 x3 R u) := by
  obtain ⟨M, hM⟩ := call1_shift_real x2 x3 hx2 hx3 (ix1 R)
  choose σ hσ using fun u => logit_real x2 x3 hx2 hx3 R u
  have hj : idx_main_call1_v8 (idx_main_call1_v10 (ix2 R v)) = ix1 R := by
    funext a; match a with | ⟨0, _⟩ => rfl
  rw [val_main_v7_apply, val_main_call1_v10_apply, val_main_call1_v9_apply, val_main_call1_v8_apply, hj,
    call1_v7_eq x2 x3 R M hM, call1_v5_eq, hM, Ideal.subf_def, Ideal.hostUnary_log_def]
  exact sub_shift_sub_log (n := 32000) (by decide) (fun u => logitAt x2 x3 R u) σ hσ M v

end teacher

section token
variable (x0 : (⟨S2048x2048, .f32⟩ : BufTy).Contents (Elt Ideal)) (x1 : (⟨S32000x2048, .f32⟩ : BufTy).Contents (Elt Ideal))
  (x2 : (⟨S2048x4096, .f32⟩ : BufTy).Contents (Elt Ideal)) (x3 : (⟨S32000x4096, .f32⟩ : BufTy).Contents (Elt Ideal))

/-- One vocabulary entry's share of a token's loss, from the two log-probabilities there. -/
theorem v24_eq (R : Fin 2048) (v : Fin 32000) :
    val_main_v24 (F := Ideal) x0 x1 x2 x3 (ix2 R v)
      = contrib (val_main_v6 (F := Ideal) x0 x1 (ix2 R v)) (val_main_v7 (F := Ideal) x2 x3 (ix2 R v)) := by
  rw [val_main_v24_apply, val_main_v19_apply, val_main_v23_apply, val_main_v17_apply, val_main_v18_apply, val_main_v21_apply,
    val_main_v22_apply, val_main_v15_apply, val_main_v14_apply, val_main_v11_apply, val_main_v13_apply, val_main_v16_apply,
    val_main_v20_apply, val_main_v10_apply, val_main_v12_apply, val_main_cst_3_apply, val_main_cst_4_apply, val_main_cst_1_apply,
    val_main_cst_2_apply, val_main_v9_apply, val_main_v8_apply]
  generalize val_main_v6 (F := Ideal) x0 x1 (ix2 R v) = a
  generalize val_main_v7 (F := Ideal) x2 x3 (ix2 R v) = b
  rfl

variable (h0 : ∀ i, ∃ r : ℝ, x0 i = (r : EReal)) (h1 : ∀ i, ∃ r : ℝ, x1 i = (r : EReal))
  (h2 : ∀ i, ∃ r : ℝ, x2 i = (r : EReal)) (h3 : ∀ i, ∃ r : ℝ, x3 i = (r : EReal))
include h0 h1 h2 h3

/-- The reference's loss of token R is the Jensen–Shannon loss of the token's two rows of logits. -/
theorem ref_tok (R : Fin 2048) :
    val_main_v25 (F := Ideal) x0 x1 x2 x3 (ix1 R)
      = tok (fun v => logitAt x0 x1 R v) (fun v => logitAt x2 x3 R v) := by
  have hsum : (∑ k : Fin 32000, val_main_v24 (F := Ideal) x0 x1 x2 x3 (idx_main_v25 (ix1 R) k))
      = ∑ v : Fin 32000, contrib (logitAt x0 x1 R v - lse (fun u => logitAt x0 x1 R u))
          (logitAt x2 x3 R v - lse (fun u => logitAt x2 x3 R u)) := by
    refine Finset.sum_congr rfl fun k _ => ?_
    have hk : idx_main_v25 (ix1 R) k = ix2 R k := by
      funext a; match a with | ⟨0, _⟩ => rfl | ⟨1, _⟩ => rfl
    rw [hk, v24_eq, v6_eq x0 x1 h0 h1, v7_eq x2 x3 h2 h3]
  rw [val_main_v25_apply, val_main_cst_5_apply, hsum, Ideal.ofBits_def, Ideal.ofBits_zero_f32, zero_add]
  unfold tok
  rfl

end token

end Cert.Jsd.Ref

end
-- ==== Proof.KernelTok.lean ====
/-
  The two launches together. The loss kernel's result column holds, at row R, the sum over the vocabulary of the share
  computed from  X = s − (M + log L)  and  Y = t − (M' + log L'),  where (M, L) and (M', L') are what the statistics kernel
  left for the row: a real shift and the row's shifted sum of exponentials. For real logits  M + log L  is the row's
  log-normaliser whatever the shift, so the column holds the token's Jensen–Shannon loss of its two rows of logits.
-/
import proofs.«159389_j37958920962547_1_alg».proof.Proof.StatsFinal
import proofs.«159389_j37958920962547_1_alg».proof.Proof.LossRegion
import proofs.«159389_j37958920962547_1_alg».proof.Proof.RefTok

noncomputable section

open Idealize.ShloMosaic Idealize.ShloMosaic.TcCoe Idealize.SL.Sem Idealize.ShloMosaic.ValueIdx
open scoped BigOperators

namespace Cert.KernelIdeal.TokValue

open Cert.KernelIdeal Cert.KernelIdeal.Gen Cert.Jsd Cert.KernelIdeal.LossValue Cert.KernelIdeal.StatsFinal

/-- With the activations and weights the two regions find equal to real-valued arrays a0 … a3, and the loss kernel's four
    column operands what the statistics kernel left, row R of the loss column is the token's loss. -/
theorem kernel_tok (V1 V2 : (c : Dev nD) → (b : Ref sig .tc) → Buf (Elt Ideal) ((c : Thread nD τ).loc b)) (c : Dev nD)
    (a0 : (⟨2, ![2048, 2048]⟩ : Shape).Idx → EReal) (a1 : (⟨2, ![32000, 2048]⟩ : Shape).Idx → EReal) (a2 : (⟨2, ![2048, 4096]⟩ : Shape).Idx → EReal) (a3 : (⟨2, ![32000, 4096]⟩ : Shape).Idx → EReal)
    (e0 : (V1 c main_v0 : (⟨2, ![2048, 2048]⟩ : Shape).Idx → EReal) = a0) (e1 : (V1 c main_v1 : (⟨2, ![32000, 2048]⟩ : Shape).Idx → EReal) = a1)
    (e2 : (V1 c main_v2 : (⟨2, ![2048, 4096]⟩ : Shape).Idx → EReal) = a2) (e3 : (V1 c main_v3 : (⟨2, ![32000, 4096]⟩ : Shape).Idx → EReal) = a3)
    (f0 : (V2 c main_v0 : (⟨2, ![2048, 2048]⟩ : Shape).Idx → EReal) = a0) (f1 : (V2 c main_v1 : (⟨2, ![32000, 2048]⟩ : Shape).Idx → EReal) = a1)
    (f2 : (V2 c main_v2 : (⟨2, ![2048, 4096]⟩ : Shape).Idx → EReal) = a2) (f3 : (V2 c main_v3 : (⟨2, ![32000, 4096]⟩ : Shape).Idx → EReal) = a3)
    (g4 : (V2 c main_v4_0 : (⟨2, ![2048, 1]⟩ : Shape).Idx → EReal) = (dat0 (F := Ideal) V1 c).arrAt 4 cfg0.N)
    (g5 : (V2 c main_v4_1 : (⟨2, ![2048, 1]⟩ : Shape).Idx → EReal) = (dat0 (F := Ideal) V1 c).arrAt 5 cfg0.N)
    (g6 : (V2 c main_v4_2 : (⟨2, ![2048, 1]⟩ : Shape).Idx → EReal) = (dat0 (F := Ideal) V1 c).arrAt 6 cfg0.N)
    (g7 : (V2 c main_v4_3 : (⟨2, ![2048, 1]⟩ : Shape).Idx → EReal) = (dat0 (F := Ideal) V1 c).arrAt 7 cfg0.N)
    (fin0 : ∀ i, ∃ r : ℝ, a0 i = (r : EReal)) (fin1 : ∀ i, ∃ r : ℝ, a1 i = (r : EReal))
    (fin2 : ∀ i, ∃ r : ℝ, a2 i = (r : EReal)) (fin3 : ∀ i, ∃ r : ℝ, a3 i = (r : EReal)) (R : Fin 2048) :
    ((dat1 (F := Ideal) V2 c).arrAt 8 cfg1.N : (⟨2, ![2048, 1]⟩ : Shape).Idx → EReal) (ix2 R (0 : Fin 1))
      = tok (fun v => logitAt a0 a1 R v) (fun v => logitAt a2 a3 R v) := by
  refine (loss_final V2 c R).trans ?_
  choose σS hσS using fun (R : Fin 2048) (u : Fin (125 * 256)) => Cert.Jsd.Ref.logit_real a0 a1 fin0 fin1 R u
  choose σT hσT using fun (R : Fin 2048) (u : Fin (125 * 256)) => Cert.Jsd.Ref.logit_real a2 a3 fin2 fin3 R u
  have hS : ∀ (R : Fin 2048) (u : Fin (125 * 256)), logitAt (V1 c main_v0) (V1 c main_v1) R u = σS R u := by
    intro R u; rw [e0, e1]; exact hσS R u
  have hT : ∀ (R : Fin 2048) (u : Fin (125 * 256)), logitAt (V1 c main_v2) (V1 c main_v3) R u = σT R u := by
    intro R u; rw [e2, e3]; exact hσT R u
  obtain ⟨⟨MS, hmS, hlS⟩, ⟨MT, hmT, hlT⟩⟩ := stats_final V1 c σS σT hS hT R
  unfold tok
  show @Eq EReal _ _
  refine Finset.sum_congr rfl fun v _ => ?_
  unfold shareOf
  rw [f0, f1, f2, f3, g4, g5, g6, g7, hmS, hlS, hmT, hlT]
  rw [sub_shift_add_log (n := 125 * 256) (by decide) (fun v => logitAt a0 a1 R v) (σS R) (hσS R) MS v,
    sub_shift_add_log (n := 125 * 256) (by decide) (fun v => logitAt a2 a3 R v) (σT R) (hσT R) MT v]

end Cert.KernelIdeal.TokValue
end
-- ==== Proof.RefTail.lean ====
/-
  The reference's last stretch — the mean of the per-token losses over the tokens whose target is not −100 — is the one
  function maskedMean of the targets and the per-token losses; with the per-token losses read as the Jensen–Shannon
  losses of the tokens' rows of logits, this is the reference's result.
-/
import proofs.«159389_j37958920962547_1_alg».proof.Proof.RefReadP
import proofs.«159389_j37958920962547_1_alg».proof.Proof.JsdTail
import proofs.«159389_j37958920962547_1_alg».proof.Proof.RefTok

noncomputable section

open scoped BigOperators

namespace Cert.Jsd.Ref

open Cert.ReferenceIdeal Cert.ReferenceIdeal.ReadP Idealize.ShloMosaic Idealize.ShloMosaic.ValueIdx

variable (x0 : (⟨S2048x2048, .f32⟩ : BufTy).Contents (Elt Ideal)) (x1 : (⟨S32000x2048, .f32⟩ : BufTy).Contents (Elt Ideal))
  (x2 : (⟨S2048x4096, .f32⟩ : BufTy).Contents (Elt Ideal)) (x3 : (⟨S32000x4096, .f32⟩ : BufTy).Contents (Elt Ideal))
  (x4 : (⟨S2048, .i32⟩ : BufTy).Contents (Elt Ideal))

/-- The reference's result is the masked mean of its per-token losses. -/
theorem ref_tail :
    val_main_v34 (F := Ideal) x0 x1 x2 x3 x4
      = maskedMean Facts₀.bcast_S_S2048 Facts₀.natLt_1_32 Facts₀.reducesTo_S2048_S_d0 Facts₀.h_S_ x4
          (val_main_v25 (F := Ideal) x0 x1 x2 x3) := by
  unfold val_main_v34 val_main_v33 val_main_v32 val_main_v31
  generalize val_main_v25 (F := Ideal) x0 x1 x2 x3 = tokv
  unfold val_main_v30 val_main_v29 val_main_v28 val_main_v27 val_main_v26 val_main_c val_main_c_6 val_main_c_7
    val_main_call2_v1 val_main_call2_v0 val_main_cst_8 val_main_cst_9 maskedMean
  rfl

variable (h0 : ∀ i, ∃ r : ℝ, x0 i = (r : EReal)) (h1 : ∀ i, ∃ r : ℝ, x1 i = (r : EReal))
  (h2 : ∀ i, ∃ r : ℝ, x2 i = (r : EReal)) (h3 : ∀ i, ∃ r : ℝ, x3 i = (r : EReal))
include h0 h1 h2 h3

/-- The reference's result: the masked mean over tokens of the Jensen–Shannon losses of the tokens' rows of logits. -/
theorem ref_result :
    val_main_v34 (F := Ideal) x0 x1 x2 x3 x4
      = maskedMean Facts₀.bcast_S_S2048 Facts₀.natLt_1_32 Facts₀.reducesTo_S2048_S_d0 Facts₀.h_S_ x4
          (fun i => tok (fun v => logitAt x0 x1 (i 0) v) (fun v => logitAt x2 x3 (i 0) v)) := by
  rw [ref_tail]
  refine congrArg (maskedMean Facts₀.bcast_S_S2048 Facts₀.natLt_1_32 Facts₀.reducesTo_S2048_S_d0 Facts₀.h_S_ x4) (funext fun i => ?_)
  exact (congrArg (val_main_v25 (F := Ideal) x0 x1 x2 x3) (eq_ix1 (n := 2048) i)).trans (ref_tok x0 x1 x2 x3 h0 h1 h2 h3 (i 0))

end Cert.Jsd.Ref

end
-- ==== Proof.FiniteInputs.lean ====
/-
  Finiteness of the four float inputs, read out of the precondition `finite_inputs`:
  the predicate is all(|a0| < +∞) ∧ all(|a1| < +∞) ∧ all(|a2| < +∞) ∧ all(|a3| < +∞); when it holds, every entry of
  a0 … a3 (an extended real in the ideal model) is a real number.
-/
import proofs.«159389_j37958920962547_1_alg».proof.Pre_finite_inputs
import proofs.«159389_j37958920962547_1_alg».proof.Proof.Gen.Pre_finite_inputs
import Idealize.ShloMosaic.PureOps.Ideal
import Idealize.ShloMosaic.Lib.ValueIdx
import Idealize.ShloMosaic.Lib.ReduceAll

noncomputable section

namespace Cert.Jsd.Finite

open Idealize.ShloMosaic Cert.Pre_finite_inputs

/-- The rank-0 shape has one index. -/
instance subsingleton_S_ : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real x with max x (-x) < +∞ is a real number. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One entry of the comparison |x| < broadcast(+∞) being 1 says that entry of x is a real number. -/
theorem real_of_entry {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    ∃ r : ℝ, x i = (r : EReal) := by
  apply real_of_abs_lt_top
  rw [← inf_bits]
  exact h

/-- jnp.all of that comparison being 1 says every entry of x is a real number. -/
theorem real_of_all {s : Shape} (x : FVec Ideal s .f32) (bc : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] bc (constant (F := Ideal) S_ .f32 0x7F800000#32)))
      (constantI S_ 1 1#1) hr hu j = 1#1) (i : s.Idx) : ∃ r : ℝ, x i = (r : EReal) :=
  real_of_entry x bc i (Host.reduce_andi_all _ _ hr hu j h i)

/-- When the precondition holds of (a0, a1, a2, a3, a4), every entry of a0, a1, a2 and a3 is a real number. -/
theorem finite_of_pre [Cert.Pre_finite_inputs.Facts] (a0 : FVec Ideal Cert.Pre_finite_inputs.S2048x2048 .f32)
    (a1 : FVec Ideal Cert.Pre_finite_inputs.S32000x2048 .f32) (a2 : FVec Ideal Cert.Pre_finite_inputs.S2048x4096 .f32)
    (a3 : FVec Ideal Cert.Pre_finite_inputs.S32000x4096 .f32) (a4 : IVec Cert.Pre_finite_inputs.S2048 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2, real_of_all a3 _ _ _ _ h3⟩

end Cert.Jsd.Finite

end
-- ==== Proof.LibColumnFlatten.lean ====
/-
  A column [a, 1] flattened to a vector [a] holds at i the column's entry of row i (the inverse of the keepdims
  reshape), for arrays of any extent.
-/
import Idealize.ShloMosaic.Lib.ValueIdx
import Idealize.ShloMosaic.Lib.Pipeline.Value

namespace Cert.LibColumnFlatten

open Idealize.ShloMosaic Idealize.ShloMosaic.ValueIdx

/-- An [a, 1] column cast to an [a] vector reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnFlatten
-- ==== Proof.lean ====
/-
  The certificate of the fused linear + Jensen–Shannon loss kernel against its two-pass reference.

  Both programs form, per token R, the student's and the teacher's logits s = x·wᵀ and t = x'·w'ᵀ over the 32000 vocabulary
  entries, turn each row into log-probabilities, and sum over the vocabulary the share
      (P/2)(Y − log M) + (Q/2)(X − log M),   Q = e^X, P = e^Y, M = P/2 + Q/2,
  then take the mean over the tokens whose target is not the ignore index. They differ only in how a log-probability is
  reached: the reference subtracts the row maximum and then the logarithm of the shifted sum of exponentials; the kernel
  keeps, tile by tile of 256 vocabulary entries, a running maximum m and a running shifted sum l (rescaled by exp (m_old −
  m_new) whenever the maximum moves) in a first launch, and subtracts m + log l in a second launch that also accumulates
  the shares tile by tile. On real logits both are  s − log ∑ exp s  — the shift cancels, whatever it is — and the
  tilewise sums are the whole sum, so under the precondition (every float input finite, hence every logit a real
  number) the two results are the same extended real. The kernel's rounding of its inputs to a narrower float format is
  the identity on extended reals; nothing was rewritten by the idealization, so the preservation claim is trivial.
-/
import proofs.«159389_j37958920962547_1_alg».proof.Defs
import proofs.«159389_j37958920962547_1_alg».proof.Proof.Gen.Kernel
import proofs.«159389_j37958920962547_1_alg».proof.Proof.Gen.Kernel.Frame
import proofs.«159389_j37958920962547_1_alg».proof.Proof.Gen.KernelIdeal
import proofs.«159389_j37958920962547_1_alg».proof.Proof.Gen.KernelIdeal.Frame
import proofs.«159389_j37958920962547_1_alg».proof.Proof.Gen.ReferenceIdeal
import proofs.«159389_j37958920962547_1_alg».proof.Proof.Gen.Pre_finite_inputs
import proofs.«159389_j37958920962547_1_alg».proof.Proof.KernelRun
import proofs.«159389_j37958920962547_1_alg».proof.Proof.KernelTok
import proofs.«159389_j37958920962547_1_alg».proof.Proof.RefRunP
import proofs.«159389_j37958920962547_1_alg».proof.Proof.RefTail
import proofs.«159389_j37958920962547_1_alg».proof.Proof.FiniteInputs
import proofs.«159389_j37958920962547_1_alg».proof.Proof.LibColumnFlatten
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the masked mean over tokens of the token's loss of its two rows of logits. -/
theorem algebraic : Cert.algebraic_KernelIdeal_ReferenceIdeal := by
  intro m ρ m' ρ' hpre hagree
  have hfin := fun c => Cert.Jsd.Finite.finite_of_pre _ _ _ _ _ (hpre c)
  refine ⟨fun c => Cert.Jsd.maskedMean Cert.KernelIdeal.Facts₀.bcast_S_S2048 Cert.KernelIdeal.Facts₀.natLt_1_32
      Cert.KernelIdeal.Facts₀.reducesTo_S2048_S_d0 Cert.KernelIdeal.Facts₀.h_S_
      (m ((c.tc : Thread Cert.KernelIdeal.nD Cert.KernelIdeal.τ).loc Cert.KernelIdeal.main_arg4))
      (fun i => Cert.Jsd.tok
        (fun v => Cert.Jsd.logitAt (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (i 0) v)
        (fun v => Cert.Jsd.logitAt (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (i 0) v)), ?_, ?_⟩
  · refine (θ_run Cert.KernelIdeal.defs _ _).mono (fun r h c => ⟨(h c).1.trans ?_, (h c).2⟩)
      (Cert.KernelIdeal.RunValue.run_value (F := Ideal) m ρ)
    obtain ⟨f0, f1, f2, f3⟩ := hfin c
    refine (Cert.KernelIdeal.RunValue.tail_value m ρ c).trans (congrArg _ (funext fun i => ?_))
    refine ((congrArg _ (ValueIdx.eq_ix1 i)).trans (Cert.LibColumnFlatten.shapeCast_a1_a_apply _ _ (i 0))).trans ?_
    exact Cert.KernelIdeal.TokValue.kernel_tok (Cert.KernelIdeal.Gen.V1 m ρ) (Cert.KernelIdeal.Gen.V2 m ρ) c _ _ _ _
      (Cert.KernelIdeal.RunValue.head1_v0 m ρ c) (Cert.KernelIdeal.RunValue.head1_v1 m ρ c)
      (Cert.KernelIdeal.RunValue.head1_v2 m ρ c) (Cert.KernelIdeal.RunValue.head1_v3 m ρ c)
      (Cert.KernelIdeal.RunValue.head2_v0 m ρ c) (Cert.KernelIdeal.RunValue.head2_v1 m ρ c)
      (Cert.KernelIdeal.RunValue.head2_v2 m ρ c) (Cert.KernelIdeal.RunValue.head2_v3 m ρ c)
      (Cert.KernelIdeal.RunValue.stats_arr_0 m ρ c) (Cert.KernelIdeal.RunValue.stats_arr_1 m ρ c)
      (Cert.KernelIdeal.RunValue.stats_arr_2 m ρ c) (Cert.KernelIdeal.RunValue.stats_arr_3 m ρ c)
      f0 f1 f2 f3 (i 0)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4⟩ := hagree c
    obtain ⟨f0, f1, f2, f3⟩ := hfin c
    rw [a0, a1, a2, a3, a4]
    exact Cert.Jsd.Ref.ref_result _ _ _ _ _ f0 f1 f2 f3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
